-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x78 : Shape := ⟨2, ![100000, 78]⟩
abbrev S2x400000 : Shape := ⟨2, ![2, 400000]⟩
abbrev S100000 : Shape := ⟨1, ![100000]⟩
abbrev S78x128 : Shape := ⟨2, ![78, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x78 : S_.BroadcastsInDim S100000x78 (![] : Fin 0 → Fin S100000x78.rank)
  reducesTo_S100000x78_S_d0_1 : S100000x78.ReducesTo [0, 1] S_
  h_S_ : 0 < S_.numel
  bcast_S_S78x128 : S_.BroadcastsInDim S78x128 (![] : Fin 0 → Fin S78x128.rank)
  reducesTo_S78x128_S_d0_1 : S78x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg9 : FVec F S128x64 .f32) (main_arg10 : FVec F S64 .f32) (main_arg11 : FVec F S64x1 .f32) (main_arg12 : FVec F S1 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg11
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg6 : FVec F S256 .f32) (main_arg7 : FVec F S256x128 .f32) (main_arg8 : FVec F S128 .f32) (main_arg9 : FVec F S128x64 .f32) (main_arg10 : FVec F S64 .f32) (main_arg11 : FVec F S64x1 .f32) (main_arg12 : FVec F S1 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x78 .f32) (main_arg1 : IVec S2x400000 32) (main_arg2 : IVec S100000 32) (main_arg3 : FVec F S78x128 .f32) (main_arg4 : FVec F S128 .f32) (main_arg5 : FVec F S128x256 .f32) (main_arg6 : FVec F S256 .f32) (main_arg7 : FVec F S256x128 .f32) (main_arg8 : FVec F S128 .f32) (main_arg9 : FVec F S128x64 .f32) (main_arg10 : FVec F S64 .f32) (main_arg11 : FVec F S64x1 .f32) (main_arg12 : FVec F S1 .f32) : IVec S_ 1 :=
  let main_v0 : FVec F S100000x78 .f32 := Host.absf main_arg0
  let main_cst : FVec F S_ .f32 := constant S_ .f32 0x7F800000#32
  let main_v1 : FVec F S100000x78 .f32 := broadcastInDim S100000x78 ![] bcast_S_S100000x78 main_cst
  let main_v2 : IVec S100000x78 1 := cmpf .olt main_v0 main_v1
  let main_c : IVec S_ 1 := constantI S_ 1 1#1
  let main_v3 : IVec S_ 1 := (fun x v => Host.reduce IntOp.andi x v reducesTo_S100000x78_S_d0_1 h_S_) main_v2 main_c
  let main_v4 : FVec F S78x128 .f32 := Host.absf main_arg3
  let main_cst_0 : FVec F S_ .f32 := constant S_ .f32 0x7F800000#32
  let main_v5 : FVec F S78x128 .f32 := broadcastInDim S78x128 ![] bcast_S_S78x128 main_cst_0
  let main_v6 : IVec S78x128 1 := cmpf .olt main_v4 main_v5
  let main_c_1 : IVec S_ 1 := constantI S_ 1 1#1
  let main_v7 : IVec S_ 1 := (fun x v => Host.reduce IntOp.andi x v reducesTo_S78x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg5
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg6 main_arg7 main_arg8 main_arg9 main_arg10 main_arg11 main_arg12 main_v13 main_v16
-- ==== Kernel.lean ====
abbrev S100000x78 : Shape := ⟨2, ![100000, 78]⟩
abbrev S2x400000 : Shape := ⟨2, ![2, 400000]⟩
abbrev S100000 : Shape := ⟨1, ![100000]⟩
abbrev S78x128 : Shape := ⟨2, ![78, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S100000x128 : Shape := ⟨2, ![100000, 128]⟩
abbrev S5000x78 : Shape := ⟨2, ![5000, 78]⟩
abbrev S5000x128 : Shape := ⟨2, ![5000, 128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S100000x256 : Shape := ⟨2, ![100000, 256]⟩
abbrev S5000x256 : Shape := ⟨2, ![5000, 256]⟩
abbrev S500000x256 : Shape := ⟨2, ![500000, 256]⟩
abbrev S1x256 : Shape := ⟨2, ![1, 256]⟩
abbrev S2000x128 : Shape := ⟨2, ![2000, 128]⟩
abbrev S100000x1 : Shape := ⟨2, ![100000, 1]⟩
abbrev S2000 : Shape := ⟨1, ![2000]⟩
abbrev S2000x1 : Shape := ⟨2, ![2000, 1]⟩
abbrev S2000x64 : Shape := ⟨2, ![2000, 64]⟩
abbrev S1x64 : Shape := ⟨2, ![1, 64]⟩
abbrev S1x1 : Shape := ⟨2, ![1, 1]⟩

abbrev nBuf : Space → Nat
  | .hbm => 175
  | .vmem => 36
  | .smem => 0
  | _ => 0

abbrev hbmTy0_0 (i : Nat) : BufTy := match i % 128 with
  | 0 => ⟨S100000x78, .f32⟩
  | 1 => ⟨S2x400000, .i32⟩
  | 2 => ⟨S100000, .i32⟩
  | 3 => ⟨S78x128, .f32⟩
  | 4 => ⟨S128, .f32⟩
  | 5 => ⟨S128x256, .f32⟩
  | 6 => ⟨S256, .f32⟩
  | 7 => ⟨S256x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x400000, .i32⟩
  | 14 => ⟨S400000, .i32⟩
  | 15 => ⟨S1x400000, .i32⟩
  | 16 => ⟨S400000, .i32⟩
  | 17 => ⟨S100000x128, .f32⟩
  | 18 => ⟨S100000, .i32⟩
  | 19 => ⟨S500000, .i32⟩
  | 20 => ⟨S500000, .i32⟩
  | 21 => ⟨S_, .f32⟩
  | 22 => ⟨S500000, .f32⟩
  | 23 => ⟨S_, .f32⟩
  | 24 => ⟨S100000, .f32⟩
  | 25 => ⟨S500000x1, .i32⟩
  | 26 => ⟨S100000, .f32⟩
  | 27 => ⟨S100000, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000, .f32⟩
  | 46 => ⟨S500000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S500000x1, .f32⟩
  | 57 => ⟨S500000x128, .f32⟩
  | 58 => ⟨S500000x128, .f32⟩
  | 59 => ⟨S_, .f32⟩
  | 60 => ⟨S100000x128, .f32⟩
  | 61 => ⟨S500000x1, .i32⟩
  | 62 => ⟨S100000x128, .f32⟩
  | 63 => ⟨S100000x128, .f32⟩
  | 64 => ⟨S100000x256, .f32⟩
  | 65 => ⟨S100000, .i32⟩
  | 66 => ⟨S500000, .i32⟩
  | 67 => ⟨S500000, .i32⟩
  | 68 => ⟨S_, .f32⟩
  | 69 => ⟨S500000, .f32⟩
  | 70 => ⟨S_, .f32⟩
  | 71 => ⟨S100000, .f32⟩
  | 72 => ⟨S500000x1, .i32⟩
  | 73 => ⟨S100000, .f32⟩
  | 74 => ⟨S100000, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000, .f32⟩
  | 84 => ⟨S_, .i32⟩
  | 85 => ⟨S500000, .i32⟩
  | 86 => ⟨S500000, .i1⟩
  | 87 => ⟨S_, .i32⟩
  | 88 => ⟨S500000, .i32⟩
  | 89 => ⟨S500000, .i32⟩
  | 90 => ⟨S500000, .i32⟩
  | 91 => ⟨S500000x1, .i32⟩
  | 92 => ⟨S500000, .f32⟩
  | 93 => ⟨S500000, .f32⟩
  | 94 => ⟨S_, .i32⟩
  | 95 => ⟨S500000, .i32⟩
  | 96 => ⟨S500000, .i1⟩
  | 97 => ⟨S_, .i32⟩
  | 98 => ⟨S500000, .i32⟩
  | 99 => ⟨S500000, .i32⟩
  | 100 => ⟨S500000, .i32⟩
  | 101 => ⟨S500000x1, .i32⟩
  | 102 => ⟨S500000x256, .f32⟩
  | 103 => ⟨S500000x1, .f32⟩
  | 104 => ⟨S500000x256, .f32⟩
  | 105 => ⟨S500000x256, .f32⟩
  | 106 => ⟨S_, .f32⟩
  | 107 => ⟨S100000x256, .f32⟩
  | 108 => ⟨S500000x1, .i32⟩
  | 109 => ⟨S100000x256, .f32⟩
  | 110 => ⟨S100000x256, .f32⟩
  | 111 => ⟨S100000x128, .f32⟩
  | 112 => ⟨S100000, .i32⟩
  | 113 => ⟨S500000, .i32⟩
  | 114 => ⟨S500000, .i32⟩
  | 115 => ⟨S_, .f32⟩
  | 116 => ⟨S500000, .f32⟩
  | 117 => ⟨S_, .f32⟩
  | 118 => ⟨S100000, .f32⟩
  | 119 => ⟨S500000x1, .i32⟩
  | 120 => ⟨S100000, .f32⟩
  | 121 => ⟨S100000, .f32⟩
  | 122 => ⟨S_, .i32⟩
  | 123 => ⟨S500000, .i32⟩
  | 124 => ⟨S500000, .i1⟩
  | 125 => ⟨S_, .i32⟩
  | 126 => ⟨S500000, .i32⟩
  | 127 => ⟨S500000, .i32⟩
  | _ => ⟨S100000x78, .f32⟩

abbrev hbmTy0_1 (i : Nat) : BufTy := match i % 128 with
  | 0 => ⟨S500000, .i32⟩
  | 1 => ⟨S500000x1, .i32⟩
  | 2 => ⟨S500000, .f32⟩
  | 3 => ⟨S_, .i32⟩
  | 4 => ⟨S500000, .i32⟩
  | 5 => ⟨S500000, .i1⟩
  | 6 => ⟨S_, .i32⟩
  | 7 => ⟨S500000, .i32⟩
  | 8 => ⟨S500000, .i32⟩
  | 9 => ⟨S500000, .i32⟩
  | 10 => ⟨S500000x1, .i32⟩
  | 11 => ⟨S500000, .f32⟩
  | 12 => ⟨S500000, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000x128, .f32⟩
  | 22 => ⟨S500000x1, .f32⟩
  | 23 => ⟨S500000x128, .f32⟩
  | 24 => ⟨S500000x128, .f32⟩
  | 25 => ⟨S_, .f32⟩
  | 26 => ⟨S100000x128, .f32⟩
  | 27 => ⟨S500000x1, .i32⟩
  | 28 => ⟨S100000x128, .f32⟩
  | 29 => ⟨S100000x128, .f32⟩
  | 30 => ⟨S_, .f32⟩
  | 31 => ⟨S2000x128, .f32⟩
  | 32 => ⟨S100000x1, .i32⟩
  | 33 => ⟨S2000x128, .f32⟩
  | 34 => ⟨S_, .f32⟩
  | 35 => ⟨S100000, .f32⟩
  | 36 => ⟨S_, .f32⟩
  | 37 => ⟨S2000, .f32⟩
  | 38 => ⟨S100000x1, .i32⟩
  | 39 => ⟨S2000, .f32⟩
  | 40 => ⟨S_, .f32⟩
  | 41 => ⟨S2000, .f32⟩
  | 42 => ⟨S2000, .f32⟩
  | 43 => ⟨S2000x1, .f32⟩
  | 44 => ⟨S2000x128, .f32⟩
  | 45 => ⟨S2000x128, .f32⟩
  | 46 => ⟨S2000x1, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | .local _ .vmem, ⟨0, _⟩ => ⟨S5000x78, .f32⟩
  | .local _ .vmem, ⟨1, _⟩ => ⟨S5000x78, .f32⟩
  | .local _ .vmem, ⟨2, _⟩ => ⟨S78x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S256x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128, .f32⟩
  | .local _ .vmem, ⟨28, _⟩ => ⟨S5000x128, .f32⟩
  | .local _ .vmem, ⟨29, _⟩ => ⟨S5000x128, .f32⟩
  | .local _ .vmem, ⟨30, _⟩ => ⟨S2000x128, .f32⟩
  | .local _ .vmem, ⟨31, _⟩ => ⟨S128x64, .f32⟩
  | .local _ .vmem, ⟨32, _⟩ => ⟨S64, .f32⟩
  | .local _ .vmem, ⟨33, _⟩ => ⟨S64x1, .f32⟩
  | .local _ .vmem, ⟨34, _⟩ => ⟨S1, .f32⟩
  | .local _ .vmem, ⟨35, _⟩ => ⟨S2000x1, .f32⟩
  | _, _ => ⟨S100000x78, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_11 : Ref sig .tc := ⟨.hbm, 84, rfl⟩
abbrev main_v58 : Ref sig .tc := ⟨.hbm, 85, rfl⟩
abbrev main_v59 : Ref sig .tc := ⟨.hbm, 86, rfl⟩
abbrev main_c_12 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_16 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_c_20 : Ref sig .tc := ⟨.hbm, 131, rfl⟩
abbrev main_v96 : Ref sig .tc := ⟨.hbm, 132, rfl⟩
abbrev main_v97 : Ref sig .tc := ⟨.hbm, 133, rfl⟩
abbrev main_c_21 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_22 : Ref sig .tc := ⟨.hbm, 141, rfl⟩
abbrev main_v104 : Ref sig .tc := ⟨.hbm, 142, rfl⟩
abbrev main_v105 : Ref sig .tc := ⟨.hbm, 143, rfl⟩
abbrev main_c_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_24 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_25 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_cst_26 : Ref sig .tc := ⟨.hbm, 162, rfl⟩
abbrev main_v121 : Ref sig .tc := ⟨.hbm, 163, rfl⟩
abbrev main_cst_27 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_28 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc6_stg4_0 : Ref sig .tc := ⟨.vmem, 34, rfl⟩
abbrev cc6_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33
abbrev cc6_sem4_0 : DmaSem sig := 34
abbrev cc6_sem5_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x78 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S78x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S2000x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S2000x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  inb_S5000x78_S5000x78_0_0 : ∀ a, (![0, 0] : Fin 2 → Nat) a + S5000x78.size a ≤ S5000x78.size a
  h_S5000x78 : 0 < S5000x78.numel
  bitsLt_bf16_f32 : FTy.bits .bf16 < FTy.bits .f32
  inb_S78x128_S78x128_0_0 : ∀ a, (![0, 0] : Fin 2 → Nat) a + S78x128.size a ≤ S78x128.size a
  h_S78x128 : 0 < S78x128.numel
  inb_S5000x128_S5000x128_0_0 : ∀ a, (![0, 0] : Fin 2 → Nat) a + S5000x128.size a ≤ S5000x128.size a
  h_S5000x128 : 0 < S5000x128.numel
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  shapeCasts_S5000x256_S5000x256 : S5000x256.ShapeCasts S5000x256
  inb_S256_S256_0 : ∀ a, (![0] : Fin 1 → Nat) a + S256.size a ≤ S256.size a
  h_S256 : 0 < S256.numel
  shapeCasts_S256_S1x256 : S256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  dot_S5000x78_S78x128_S5000x128_1_0_0_1_n_n_wf : DotDims.WF S5000x78 S78x128 S5000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S5000x128_S128x256_S5000x256_1_0_0_1_n_n_wf : DotDims.WF S5000x128 S128x256 S5000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S5000x256_S256x128_S5000x128_1_0_0_1_n_n_wf : DotDims.WF S5000x256 S256x128 S5000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x78.size a ≤ S100000x78.size a
  hwx0_0 : ∀ i : grid0.Coords, EltTy.bits .f32 = 32 ∨ (Rect.block (s := S100000x78) S5000x78.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S78x128.size a ≤ S78x128.size a
  hwx0_1 : ∀ i : grid0.Coords, EltTy.bits .f32 = 32 ∨ (Rect.block (s := S78x128) S78x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S100000x256.size a
  hwx2_2 : ∀ i : grid2.Coords, EltTy.bits .f32 = 32 ∨ (Rect.block (s := S100000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S100000x256.size a
  hwx3_0 : ∀ i : grid3.Coords, EltTy.bits .f32 = 32 ∨ (Rect.block (s := S100000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256.size a ≤ S256.size a
  hwx3_1 : ∀ i : grid3.Coords, EltTy.bits .f32 = 32 ∨ (Rect.block (s := S256) S256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x256.size a ≤ S100000x256.size a
  hwx3_2 : ∀ i : grid3.Coords, EltTy.bits .f32 = 32 ∨ (Rect.block (s := S100000x256) S5000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x256.size a ≤ S100000x256.size a
  hwx4_0 : ∀ i : grid4.Coords, EltTy.bits .f32 = 32 ∨ (Rect.block (s := S100000x256) S5000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x128.size a ≤ S256x128.size a
  hwx4_1 : ∀ i : grid4.Coords, EltTy.bits .f32 = 32 ∨ (Rect.block (s := S256x128) S256x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S2000x128.size a
  hwx6_0 : ∀ i : grid6.Coords, EltTy.bits .f32 = 32 ∨ (Rect.block (s := S2000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64.size a ≤ S64.size a
  hwx6_2 : ∀ i : grid6.Coords, EltTy.bits .f32 = 32 ∨ (Rect.block (s := S64) S64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1.size a ≤ S1.size a
  hwx6_4 : ∀ i : grid6.Coords, EltTy.bits .f32 = 32 ∨ (Rect.block (s := S1) S1.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S2000x1.size a
  hwx6_5 : ∀ i : grid6.Coords, EltTy.bits .f32 = 32 ∨ (Rect.block (s := S2000x1) S2000x1.size (cc6_transform_5 i) (hinb6_5 i)).WholeWords (EltTy.packing .f32)

variable [Facts₀]

def dot_S5000x78_S78x128_S5000x128_1_0_0_1_n_n : DotDims S5000x78 S78x128 S5000x128 where
  lhsContracting := [1]
  rhsContracting := [0]
  lhsNonContracting := [0]
  rhsNonContracting := [1]
  lhsBatch := []
  rhsBatch := []
  wf := dot_S5000x78_S78x128_S5000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_arg0) S5000x78.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S78x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v42) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S5000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S5000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v116) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg8) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v117) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v129) S2000x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg10) S64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg11) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg12) S1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v130) S2000x1.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x78 : Shape := ⟨2, ![100000, 78]⟩
abbrev S2x400000 : Shape := ⟨2, ![2, 400000]⟩
abbrev S100000 : Shape := ⟨1, ![100000]⟩
abbrev S78x128 : Shape := ⟨2, ![78, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x400000 : Shape := ⟨2, ![1, 400000]⟩
abbrev S400000 : Shape := ⟨1, ![400000]⟩
abbrev S100000x128 : Shape := ⟨2, ![100000, 128]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S1x128 : Shape := ⟨2, ![1, 128]⟩
abbrev S100000x256 : Shape := ⟨2, ![100000, 256]⟩
abbrev S500000x256 : Shape := ⟨2, ![500000, 256]⟩
abbrev S1x256 : Shape := ⟨2, ![1, 256]⟩
abbrev S2000x128 : Shape := ⟨2, ![2000, 128]⟩
abbrev S100000x1 : Shape := ⟨2, ![100000, 1]⟩
abbrev S2000 : Shape := ⟨1, ![2000]⟩
abbrev S2000x1 : Shape := ⟨2, ![2000, 1]⟩
abbrev S2000x64 : Shape := ⟨2, ![2000, 64]⟩
abbrev S1x64 : Shape := ⟨2, ![1, 64]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S100000x78, .f32⟩
  | 1 => ⟨S2x400000, .i32⟩
  | 2 => ⟨S100000, .i32⟩
  | 3 => ⟨S78x128, .f32⟩
  | 4 => ⟨S128, .f32⟩
  | 5 => ⟨S128x256, .f32⟩
  | 6 => ⟨S256, .f32⟩
  | 7 => ⟨S256x128, .f32⟩
  | 8 => ⟨S128, .f32⟩
  | 9 => ⟨S128x64, .f32⟩
  | 10 => ⟨S64, .f32⟩
  | 11 => ⟨S64x1, .f32⟩
  | 12 => ⟨S1, .f32⟩
  | 13 => ⟨S1x400000, .i32⟩
  | 14 => ⟨S400000, .i32⟩
  | 15 => ⟨S1x400000, .i32⟩
  | 16 => ⟨S400000, .i32⟩
  | 17 => ⟨S100000x128, .f32⟩
  | 18 => ⟨S100000, .i32⟩
  | 19 => ⟨S500000, .i32⟩
  | 20 => ⟨S500000, .i32⟩
  | 21 => ⟨S_, .f32⟩
  | 22 => ⟨S500000, .f32⟩
  | 23 => ⟨S_, .f32⟩
  | 24 => ⟨S100000, .f32⟩
  | 25 => ⟨S500000x1, .i32⟩
  | 26 => ⟨S100000, .f32⟩
  | 27 => ⟨S100000, .f32⟩
  | 28 => ⟨S_, .i32⟩
  | 29 => ⟨S500000, .i32⟩
  | 30 => ⟨S500000, .i1⟩
  | 31 => ⟨S_, .i32⟩
  | 32 => ⟨S500000, .i32⟩
  | 33 => ⟨S500000, .i32⟩
  | 34 => ⟨S500000, .i32⟩
  | 35 => ⟨S500000x1, .i32⟩
  | 36 => ⟨S500000, .f32⟩
  | 37 => ⟨S_, .i32⟩
  | 38 => ⟨S500000, .i32⟩
  | 39 => ⟨S500000, .i1⟩
  | 40 => ⟨S_, .i32⟩
  | 41 => ⟨S500000, .i32⟩
  | 42 => ⟨S500000, .i32⟩
  | 43 => ⟨S500000, .i32⟩
  | 44 => ⟨S500000x1, .i32⟩
  | 45 => ⟨S500000, .f32⟩
  | 46 => ⟨S500000, .f32⟩
  | 47 => ⟨S_, .i32⟩
  | 48 => ⟨S500000, .i32⟩
  | 49 => ⟨S500000, .i1⟩
  | 50 => ⟨S_, .i32⟩
  | 51 => ⟨S500000, .i32⟩
  | 52 => ⟨S500000, .i32⟩
  | 53 => ⟨S500000, .i32⟩
  | 54 => ⟨S500000x1, .i32⟩
  | 55 => ⟨S500000x128, .f32⟩
  | 56 => ⟨S500000x1, .f32⟩
  | 57 => ⟨S500000x128, .f32⟩
  | 58 => ⟨S500000x128, .f32⟩
  | 59 => ⟨S_, .f32⟩
  | 60 => ⟨S100000x128, .f32⟩
  | 61 => ⟨S500000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x256, .f32⟩
  | 70 => ⟨S100000, .i32⟩
  | 71 => ⟨S500000, .i32⟩
  | 72 => ⟨S500000, .i32⟩
  | 73 => ⟨S_, .f32⟩
  | 74 => ⟨S500000, .f32⟩
  | 75 => ⟨S_, .f32⟩
  | 76 => ⟨S100000, .f32⟩
  | 77 => ⟨S500000x1, .i32⟩
  | 78 => ⟨S100000, .f32⟩
  | 79 => ⟨S100000, .f32⟩
  | 80 => ⟨S_, .i32⟩
  | 81 => ⟨S500000, .i32⟩
  | 82 => ⟨S500000, .i1⟩
  | 83 => ⟨S_, .i32⟩
  | 84 => ⟨S500000, .i32⟩
  | 85 => ⟨S500000, .i32⟩
  | 86 => ⟨S500000, .i32⟩
  | 87 => ⟨S500000x1, .i32⟩
  | 88 => ⟨S500000, .f32⟩
  | 89 => ⟨S_, .i32⟩
  | 90 => ⟨S500000, .i32⟩
  | 91 => ⟨S500000, .i1⟩
  | 92 => ⟨S_, .i32⟩
  | 93 => ⟨S500000, .i32⟩
  | 94 => ⟨S500000, .i32⟩
  | 95 => ⟨S500000, .i32⟩
  | 96 => ⟨S500000x1, .i32⟩
  | 97 => ⟨S500000, .f32⟩
  | 98 => ⟨S500000, .f32⟩
  | 99 => ⟨S_, .i32⟩
  | 100 => ⟨S500000, .i32⟩
  | 101 => ⟨S500000, .i1⟩
  | 102 => ⟨S_, .i32⟩
  | 103 => ⟨S500000, .i32⟩
  | 104 => ⟨S500000, .i32⟩
  | 105 => ⟨S500000, .i32⟩
  | 106 => ⟨S500000x1, .i32⟩
  | 107 => ⟨S500000x256, .f32⟩
  | 108 => ⟨S500000x1, .f32⟩
  | 109 => ⟨S500000x256, .f32⟩
  | 110 => ⟨S500000x256, .f32⟩
  | 111 => ⟨S_, .f32⟩
  | 112 => ⟨S100000x256, .f32⟩
  | 113 => ⟨S500000x1, .i32⟩
  | 114 => ⟨S100000x256, .f32⟩
  | 115 => ⟨S1x256, .f32⟩
  | 116 => ⟨S100000x256, .f32⟩
  | 117 => ⟨S100000x256, .f32⟩
  | 118 => ⟨S_, .f32⟩
  | 119 => ⟨S100000x256, .f32⟩
  | 120 => ⟨S100000x256, .f32⟩
  | 121 => ⟨S100000x128, .f32⟩
  | 122 => ⟨S100000, .i32⟩
  | 123 => ⟨S500000, .i32⟩
  | 124 => ⟨S500000, .i32⟩
  | 125 => ⟨S_, .f32⟩
  | 126 => ⟨S500000, .f32⟩
  | 127 => ⟨S_, .f32⟩
  | _ => ⟨S100000x78, .f32⟩

abbrev hbmTy0_1 (i : Nat) : BufTy := match i % 128 with
  | 0 => ⟨S100000, .f32⟩
  | 1 => ⟨S500000x1, .i32⟩
  | 2 => ⟨S100000, .f32⟩
  | 3 => ⟨S100000, .f32⟩
  | 4 => ⟨S_, .i32⟩
  | 5 => ⟨S500000, .i32⟩
  | 6 => ⟨S500000, .i1⟩
  | 7 => ⟨S_, .i32⟩
  | 8 => ⟨S500000, .i32⟩
  | 9 => ⟨S500000, .i32⟩
  | 10 => ⟨S500000, .i32⟩
  | 11 => ⟨S500000x1, .i32⟩
  | 12 => ⟨S500000, .f32⟩
  | 13 => ⟨S_, .i32⟩
  | 14 => ⟨S500000, .i32⟩
  | 15 => ⟨S500000, .i1⟩
  | 16 => ⟨S_, .i32⟩
  | 17 => ⟨S500000, .i32⟩
  | 18 => ⟨S500000, .i32⟩
  | 19 => ⟨S500000, .i32⟩
  | 20 => ⟨S500000x1, .i32⟩
  | 21 => ⟨S500000, .f32⟩
  | 22 => ⟨S500000, .f32⟩
  | 23 => ⟨S_, .i32⟩
  | 24 => ⟨S500000, .i32⟩
  | 25 => ⟨S500000, .i1⟩
  | 26 => ⟨S_, .i32⟩
  | 27 => ⟨S500000, .i32⟩
  | 28 => ⟨S500000, .i32⟩
  | 29 => ⟨S500000, .i32⟩
  | 30 => ⟨S500000x1, .i32⟩
  | 31 => ⟨S500000x128, .f32⟩
  | 32 => ⟨S500000x1, .f32⟩
  | 33 => ⟨S500000x128, .f32⟩
  | 34 => ⟨S500000x128, .f32⟩
  | 35 => ⟨S_, .f32⟩
  | 36 => ⟨S100000x128, .f32⟩
  | 37 => ⟨S500000x1, .i32⟩
  | 38 => ⟨S100000x128, .f32⟩
  | 39 => ⟨S1x128, .f32⟩
  | 40 => ⟨S100000x128, .f32⟩
  | 41 => ⟨S100000x128, .f32⟩
  | 42 => ⟨S_, .f32⟩
  | 43 => ⟨S100000x128, .f32⟩
  | 44 => ⟨S100000x128, .f32⟩
  | 45 => ⟨S_, .f32⟩
  | 46 => ⟨S2000x128, .f32⟩
  | 47 => ⟨S100000x1, .i32⟩
  | 48 => ⟨S2000x128, .f32⟩
  | 49 => ⟨S_, .f32⟩
  | 50 => ⟨S100000, .f32⟩
  | 51 => ⟨S_, .f32⟩
  | 52 => ⟨S2000, .f32⟩
  | 53 => ⟨S100000x1, .i32⟩
  | 54 => ⟨S2000, .f32⟩
  | 55 => ⟨S_, .f32⟩
  | 56 => ⟨S2000, .f32⟩
  | 57 => ⟨S2000, .f32⟩
  | 58 => ⟨S2000x1, .f32⟩
  | 59 => ⟨S2000x128, .f32⟩
  | 60 => ⟨S2000x128, .f32⟩
  | 61 => ⟨S2000x64, .f32⟩
  | 62 => ⟨S1x64, .f32⟩
  | 63 => ⟨S2000x64, .f32⟩
  | 64 => ⟨S2000x64, .f32⟩
  | 65 => ⟨S_, .f32⟩
  | 66 => ⟨S2000x64, .f32⟩
  | 67 => ⟨S2000x64, .f32⟩
  | 68 => ⟨S2000x1, .f32⟩
  | 69 => ⟨S1x1, .f32⟩
  | 70 => ⟨S2000x1, .f32⟩
  | 71 => ⟨S2000x1, .f32⟩
  | _ => ⟨S100000x78, .f32⟩

abbrev hbmTy (i : Nat) : BufTy := match i / 128 with
  | 0 => hbmTy0_0 i
  | 1 => hbmTy0_1 i
  | _ => ⟨S100000x78, .f32⟩

abbrev bufTy : (tb : Table) → Fin (tcTables nBuf tb) → BufTy
  | .hbm, ⟨i, _⟩ => hbmTy i
  | _, _ => ⟨S100000x78, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_2 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call0_cst : Ref sig .tc := ⟨.hbm, 66, rfl⟩
abbrev main_call0_v0 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_cst_8 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_9 : Ref sig .tc := ⟨.hbm, 80, rfl⟩
abbrev main_v54 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_c_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_13 : Ref sig .tc := ⟨.hbm, 99, rfl⟩
abbrev main_v69 : Ref sig .tc := ⟨.hbm, 100, rfl⟩
abbrev main_v70 : Ref sig .tc := ⟨.hbm, 101, rfl⟩
abbrev main_c_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_15 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call1_cst : Ref sig .tc := ⟨.hbm, 118, rfl⟩
abbrev main_call1_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_cst_16 : Ref sig .tc := ⟨.hbm, 125, rfl⟩
abbrev main_v90 : Ref sig .tc := ⟨.hbm, 126, rfl⟩
abbrev main_cst_17 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_c_18 : Ref sig .tc := ⟨.hbm, 132, rfl⟩
abbrev main_v95 : Ref sig .tc := ⟨.hbm, 133, rfl⟩
abbrev main_v96 : Ref sig .tc := ⟨.hbm, 134, rfl⟩
abbrev main_c_19 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_20 : Ref sig .tc := ⟨.hbm, 141, rfl⟩
abbrev main_v102 : Ref sig .tc := ⟨.hbm, 142, rfl⟩
abbrev main_v103 : Ref sig .tc := ⟨.hbm, 143, rfl⟩
abbrev main_c_21 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_22 : Ref sig .tc := ⟨.hbm, 151, rfl⟩
abbrev main_v110 : Ref sig .tc := ⟨.hbm, 152, rfl⟩
abbrev main_v111 : Ref sig .tc := ⟨.hbm, 153, rfl⟩
abbrev main_c_23 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_24 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_call2_cst : Ref sig .tc := ⟨.hbm, 170, rfl⟩
abbrev main_call2_v0 : Ref sig .tc := ⟨.hbm, 171, rfl⟩
abbrev main_v126 : Ref sig .tc := ⟨.hbm, 172, rfl⟩
abbrev main_cst_25 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_cst_26 : Ref sig .tc := ⟨.hbm, 177, rfl⟩
abbrev main_v130 : Ref sig .tc := ⟨.hbm, 178, rfl⟩
abbrev main_cst_27 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_28 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_call3_cst : Ref sig .tc := ⟨.hbm, 193, rfl⟩
abbrev main_call3_v0 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S100000_S500000_d0 : Shape.Concatenates [S400000, S100000] S500000 0
  bcast_S_S500000 : S_.BroadcastsInDim S500000 (![] : Fin 0 → Fin S500000.rank)
  bcast_S_S100000 : S_.BroadcastsInDim S100000 (![] : Fin 0 → Fin S100000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S500000x1_S500000x256_0_1 : S500000x1.BroadcastsInDim S500000x256 (![0, 1] : Fin 2 → Fin S500000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S2000x128 : S_.BroadcastsInDim S2000x128 (![] : Fin 0 → Fin S2000x128.rank)
  bcast_S100000_S100000x1_0 : S100000.BroadcastsInDim S100000x1 (![0] : Fin 1 → Fin S100000x1.rank)
  bcast_S_S2000 : S_.BroadcastsInDim S2000 (![] : Fin 0 → Fin S2000.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S64_S1x64_1 : S64.BroadcastsInDim S1x64 (![1] : Fin 1 → Fin S1x64.rank)
  bcast_S1x64_S2000x64_0_1 : S1x64.BroadcastsInDim S2000x64 (![0, 1] : Fin 2 → Fin S2000x64.rank)
  bcast_S_S2000x64 : S_.BroadcastsInDim S2000x64 (![] : Fin 0 → Fin S2000x64.rank)
  bcast_S1_S1x1_1 : S1.BroadcastsInDim S1x1 (![1] : Fin 1 → Fin S1x1.rank)
  bcast_S1x1_S2000x1_0_1 : S1x1.BroadcastsInDim S2000x1 (![0, 1] : Fin 2 → Fin S2000x1.rank)
  dot_S100000x78_S78x128_S100000x128_1_0_0_1_n_n_wf : DotDims.WF S100000x78 S78x128 S100000x128 [1] [0] [0] [1] [] []
  scatter_S100000_S500000x1_S500000_n_0_0_1_wf : ScatterDims.WF S100000 S500000x1 S500000 [] [0] [0] 1
  gather_S100000_S500000x1_S500000_n_0_n_n_0_1_1_wf : GatherDims.WF S100000 S500000x1 S500000 [] [0] [] [0] [] 1 ![1]
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x256_S100000x256_1_0_0_1_n_n_wf : DotDims.WF S100000x128 S128x256 S100000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x128_S100000x128_1_0_0_1_n_n_wf : DotDims.WF S100000x256 S256x128 S100000x128 [1] [0] [0] [1] [] []
  scatter_S2000x128_S100000x1_S100000x128_1_0_0_1_wf : ScatterDims.WF S2000x128 S100000x1 S100000x128 [1] [0] [0] 1
  scatter_S2000_S100000x1_S100000_n_0_0_1_wf : ScatterDims.WF S2000 S100000x1 S100000 [] [0] [0] 1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []

variable [Facts₀]

def dot_S100000x78_S78x128_S100000x128_1_0_0_1_n_n : DotDims S100000x78 S78x128 S100000x128 where
  lhsContracting := [1]
  rhsContracting := [0]
  lhsNonContracting := [0]
  rhsNonContracting := [1]
  lhsBatch := []
  rhsBatch := []
  wf := dot_S100000x78_S78x128_S100000x128_1_0_0_1_n_n_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S2000x128_S100000x1_S100000x128_1_0_0_1 : ScatterDims S2000x128 S100000x1 S100000x128 where
  updateWindowDims := [1]
  insertedWindowDims := [0]
  scatterDimsToOperandDims := [0]
  indexVectorDim := 1
  wf := scatter_S2000x128_S100000x1_S100000x128_1_0_0_1_wf
def scatter_S2000_S100000x1_S100000_n_0_0_1 : ScatterDims S2000 S100000x1 S100000 where
  updateWindowDims := []
  insertedWindowDims := [0]
  scatterDimsToOperandDims := [0]
  indexVectorDim := 1
  wf := scatter_S2000_S100000x1_S100000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

class Facts : Prop extends Facts₀ where

variable [Facts]
-- ==== Proof.KRun.lean ====
/-
  The idealized kernel program's run with every unscoped buffer named at its end.

  The program is seven pipelined calls among stretches of host operations. Its buffers' contents at each boundary form
  a fold from the launch memory: a stretch of host operations applies them in order, a call leaves each of its arrays at
  what its write-backs leave and every other buffer as it was. Every weakly fair execution terminates, and each
  buffer that is not scoped to a call ends at the last boundary's contents.
-/
import proofs.«111953_j85650237817597_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and every unscoped buffer of every core ends
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

end Cert.KernelIdeal.KRun

end
-- ==== Proof.Keep.lean ====
/-
  Buffers that the idealized kernel program never overwrites, read at the boundaries where a later step reads them.

  An argument array is written by no host operation and by no pipelined call (a call that reads it through an input
  window leaves it as it was), so at every boundary it holds its launch contents. The source and destination index
  vectors, cut out of the edge list once by the first stretch of host operations, are read again by each of the three
  aggregation stretches: no later step writes them, so each stretch finds them as the first stretch left them.
-/
import proofs.«111953_j85650237817597_1_alg».proof.Proof.Gen.KernelIdeal.Frame

set_option maxRecDepth 16384

noncomputable section

namespace Cert.KernelIdeal.Keep

open Idealize.ShloMosaic Idealize.ShloMosaic.TcCoe Idealize.SL.Sem
open Idealize.ShloMosaic.Pipeline (Dat)
open Cert.KernelIdeal Cert.KernelIdeal.Gen

/-- A stretch of host operations leaves a buffer none of them writes as it was. -/
macro "keep_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable {F : FTy → Type} [FloatOps F]
variable (m : (ℓ : Loc nD τ sig) → Buf (Elt F) ℓ) (ρ : Dev nD → PrngReg)

theorem W1_arg0 (c : Dev nD) : W1 m ρ c (Proc.devRef .tc main_arg0) = m ((c : Thread nD τ).loc main_arg0) :=
  calc W1 m ρ c (Proc.devRef .tc main_arg0)
    _ = W0 m ρ c (Proc.devRef .tc main_arg0) := (by keep_host hostOps0)
    _ = m ((c : Thread nD τ).loc main_arg0) := rfl

theorem W1_arg3 (c : Dev nD) : W1 m ρ c (Proc.devRef .tc main_arg3) = m ((c : Thread nD τ).loc main_arg3) :=
  calc W1 m ρ c (Proc.devRef .tc main_arg3)
    _ = W0 m ρ c (Proc.devRef .tc main_arg3) := (by keep_host hostOps0)
    _ = m ((c : Thread nD τ).loc main_arg3) := rfl

theorem W2_v1 (c : Dev nD) : W2 m ρ c (Proc.devRef .tc main_v1) = W1 m ρ c (Proc.devRef .tc main_v1) :=
  calc W2 m ρ c (Proc.devRef .tc main_v1)
    _ = W1 m ρ c (Proc.devRef .tc main_v1) := (W2_of_ne m ρ c main_v1 (by decide))

theorem W2_v3 (c : Dev nD) : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem W3_arg4 (c : Dev nD) : W3 m ρ c (Proc.devRef .tc main_arg4) = m ((c : Thread nD τ).loc main_arg4) :=
  calc W3 m ρ c (Proc.devRef .tc main_arg4)
    _ = W2 m ρ c (Proc.devRef .tc main_arg4) := (by keep_host hostOps1)
    _ = W1 m ρ c (Proc.devRef .tc main_arg4) := (W2_of_ne m ρ c main_arg4 (by decide))
    _ = W0 m ρ c (Proc.devRef .tc main_arg4) := (by keep_host hostOps0)
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := (W4_of_ne m ρ c main_arg5 (by decide))
    _ = W2 m ρ c (Proc.devRef .tc main_arg5) := (by keep_host hostOps1)
    _ = W1 m ρ c (Proc.devRef .tc main_arg5) := (W2_of_ne m ρ c main_arg5 (by decide))
    _ = W0 m ρ c (Proc.devRef .tc main_arg5) := (by keep_host hostOps0)
    _ = m ((c : Thread nD τ).loc main_arg5) := rfl

theorem W5_v1 (c : Dev nD) : W5 m ρ c (Proc.devRef .tc main_v1) = W1 m ρ c (Proc.devRef .tc main_v1) :=
  calc W5 m ρ c (Proc.devRef .tc main_v1)
    _ = W4 m ρ c (Proc.devRef .tc main_v1) := (W5_of_ne m ρ c main_v1 (by decide))
    _ = W3 m ρ c (Proc.devRef .tc main_v1) := (W4_of_ne m ρ c main_v1 (by decide))
    _ = W2 m ρ c (Proc.devRef .tc main_v1) := (by keep_host hostOps1)
    _ = W1 m ρ c (Proc.devRef .tc main_v1) := (W2_of_ne m ρ c main_v1 (by decide))

theorem W5_v3 (c : Dev nD) : W5 m ρ c (Proc.devRef .tc main_v3) = W1 m ρ c (Proc.devRef .tc main_v3) :=
  calc W5 m ρ c (Proc.devRef .tc main_v3)
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (by keep_host hostOps1)
    _ = W1 m ρ c (Proc.devRef .tc main_v3) := (W2_of_ne m ρ c main_v3 (by decide))

theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := (by keep_host hostOps3)
    _ = W4 m ρ c (Proc.devRef .tc main_arg6) := (W5_of_ne m ρ c main_arg6 (by decide))
    _ = W3 m ρ c (Proc.devRef .tc main_arg6) := (W4_of_ne m ρ c main_arg6 (by decide))
    _ = W2 m ρ c (Proc.devRef .tc main_arg6) := (by keep_host hostOps1)
    _ = W1 m ρ c (Proc.devRef .tc main_arg6) := (W2_of_ne m ρ c main_arg6 (by decide))
    _ = W0 m ρ c (Proc.devRef .tc main_arg6) := (by keep_host hostOps0)
    _ = m ((c : Thread nD τ).loc main_arg6) := rfl

theorem W7_arg7 (c : Dev nD) : W7 m ρ c (Proc.devRef .tc main_arg7) = m ((c : Thread nD τ).loc main_arg7) :=
  calc W7 m ρ c (Proc.devRef .tc main_arg7)
    _ = W6 m ρ c (Proc.devRef .tc main_arg7) := (W7_of_ne m ρ c main_arg7 (by decide))
    _ = W5 m ρ c (Proc.devRef .tc main_arg7) := (by keep_host hostOps3)
    _ = W4 m ρ c (Proc.devRef .tc main_arg7) := (W5_of_ne m ρ c main_arg7 (by decide))
    _ = W3 m ρ c (Proc.devRef .tc main_arg7) := (W4_of_ne m ρ c main_arg7 (by decide))
    _ = W2 m ρ c (Proc.devRef .tc main_arg7) := (by keep_host hostOps1)
    _ = W1 m ρ c (Proc.devRef .tc main_arg7) := (W2_of_ne m ρ c main_arg7 (by decide))
    _ = W0 m ρ c (Proc.devRef .tc main_arg7) := (by keep_host hostOps0)
    _ = m ((c : Thread nD τ).loc main_arg7) := rfl

theorem W8_v1 (c : Dev nD) : W8 m ρ c (Proc.devRef .tc main_v1) = W1 m ρ c (Proc.devRef .tc main_v1) :=
  calc W8 m ρ c (Proc.devRef .tc main_v1)
    _ = W7 m ρ c (Proc.devRef .tc main_v1) := (W8_of_ne m ρ c main_v1 (by decide))
    _ = W6 m ρ c (Proc.devRef .tc main_v1) := (W7_of_ne m ρ c main_v1 (by decide))
    _ = W5 m ρ c (Proc.devRef .tc main_v1) := (by keep_host hostOps3)
    _ = W4 m ρ c (Proc.devRef .tc main_v1) := (W5_of_ne m ρ c main_v1 (by decide))
    _ = W3 m ρ c (Proc.devRef .tc main_v1) := (W4_of_ne m ρ c main_v1 (by decide))
    _ = W2 m ρ c (Proc.devRef .tc main_v1) := (by keep_host hostOps1)
    _ = W1 m ρ c (Proc.devRef .tc main_v1) := (W2_of_ne m ρ c main_v1 (by decide))

theorem W8_v3 (c : Dev nD) : W8 m ρ c (Proc.devRef .tc main_v3) = W1 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (W7_of_ne m ρ c main_v3 (by decide))
    _ = W5 m ρ c (Proc.devRef .tc main_v3) := (by keep_host hostOps3)
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (by keep_host hostOps1)
    _ = W1 m ρ c (Proc.devRef .tc main_v3) := (W2_of_ne m ρ c main_v3 (by decide))

theorem W9_arg8 (c : Dev nD) : W9 m ρ c (Proc.devRef .tc main_arg8) = m ((c : Thread nD τ).loc main_arg8) :=
  calc W9 m ρ c (Proc.devRef .tc main_arg8)
    _ = W8 m ρ c (Proc.devRef .tc main_arg8) := (by keep_host hostOps5)
    _ = W7 m ρ c (Proc.devRef .tc main_arg8) := (W8_of_ne m ρ c main_arg8 (by decide))
    _ = W6 m ρ c (Proc.devRef .tc main_arg8) := (W7_of_ne m ρ c main_arg8 (by decide))
    _ = W5 m ρ c (Proc.devRef .tc main_arg8) := (by keep_host hostOps3)
    _ = W4 m ρ c (Proc.devRef .tc main_arg8) := (W5_of_ne m ρ c main_arg8 (by decide))
    _ = W3 m ρ c (Proc.devRef .tc main_arg8) := (W4_of_ne m ρ c main_arg8 (by decide))
    _ = W2 m ρ c (Proc.devRef .tc main_arg8) := (by keep_host hostOps1)
    _ = W1 m ρ c (Proc.devRef .tc main_arg8) := (W2_of_ne m ρ c main_arg8 (by decide))
    _ = W0 m ρ c (Proc.devRef .tc main_arg8) := (by keep_host hostOps0)
    _ = m ((c : Thread nD τ).loc main_arg8) := rfl

theorem W10_arg2 (c : Dev nD) : W10 m ρ c (Proc.devRef .tc main_arg2) = m ((c : Thread nD τ).loc main_arg2) :=
  calc W10 m ρ c (Proc.devRef .tc main_arg2)
    _ = W9 m ρ c (Proc.devRef .tc main_arg2) := (W10_of_ne m ρ c main_arg2 (by decide))
    _ = W8 m ρ c (Proc.devRef .tc main_arg2) := (by keep_host hostOps5)
    _ = W7 m ρ c (Proc.devRef .tc main_arg2) := (W8_of_ne m ρ c main_arg2 (by decide))
    _ = W6 m ρ c (Proc.devRef .tc main_arg2) := (W7_of_ne m ρ c main_arg2 (by decide))
    _ = W5 m ρ c (Proc.devRef .tc main_arg2) := (by keep_host hostOps3)
    _ = W4 m ρ c (Proc.devRef .tc main_arg2) := (W5_of_ne m ρ c main_arg2 (by decide))
    _ = W3 m ρ c (Proc.devRef .tc main_arg2) := (W4_of_ne m ρ c main_arg2 (by decide))
    _ = W2 m ρ c (Proc.devRef .tc main_arg2) := (by keep_host hostOps1)
    _ = W1 m ρ c (Proc.devRef .tc main_arg2) := (W2_of_ne m ρ c main_arg2 (by decide))
    _ = W0 m ρ c (Proc.devRef .tc main_arg2) := (by keep_host hostOps0)
    _ = m ((c : Thread nD τ).loc main_arg2) := rfl

theorem W11_arg9 (c : Dev nD) : W11 m ρ c (Proc.devRef .tc main_arg9) = m ((c : Thread nD τ).loc main_arg9) :=
  calc W11 m ρ c (Proc.devRef .tc main_arg9)
    _ = W10 m ρ c (Proc.devRef .tc main_arg9) := (by keep_host hostOps6)
    _ = W9 m ρ c (Proc.devRef .tc main_arg9) := (W10_of_ne m ρ c main_arg9 (by decide))
    _ = W8 m ρ c (Proc.devRef .tc main_arg9) := (by keep_host hostOps5)
    _ = W7 m ρ c (Proc.devRef .tc main_arg9) := (W8_of_ne m ρ c main_arg9 (by decide))
    _ = W6 m ρ c (Proc.devRef .tc main_arg9) := (W7_of_ne m ρ c main_arg9 (by decide))
    _ = W5 m ρ c (Proc.devRef .tc main_arg9) := (by keep_host hostOps3)
    _ = W4 m ρ c (Proc.devRef .tc main_arg9) := (W5_of_ne m ρ c main_arg9 (by decide))
    _ = W3 m ρ c (Proc.devRef .tc main_arg9) := (W4_of_ne m ρ c main_arg9 (by decide))
    _ = W2 m ρ c (Proc.devRef .tc main_arg9) := (by keep_host hostOps1)
    _ = W1 m ρ c (Proc.devRef .tc main_arg9) := (W2_of_ne m ρ c main_arg9 (by decide))
    _ = W0 m ρ c (Proc.devRef .tc main_arg9) := (by keep_host hostOps0)
    _ = m ((c : Thread nD τ).loc main_arg9) := rfl

theorem W11_arg10 (c : Dev nD) : W11 m ρ c (Proc.devRef .tc main_arg10) = m ((c : Thread nD τ).loc main_arg10) :=
  calc W11 m ρ c (Proc.devRef .tc main_arg10)
    _ = W10 m ρ c (Proc.devRef .tc main_arg10) := (by keep_host hostOps6)
    _ = W9 m ρ c (Proc.devRef .tc main_arg10) := (W10_of_ne m ρ c main_arg10 (by decide))
    _ = W8 m ρ c (Proc.devRef .tc main_arg10) := (by keep_host hostOps5)
    _ = W7 m ρ c (Proc.devRef .tc main_arg10) := (W8_of_ne m ρ c main_arg10 (by decide))
    _ = W6 m ρ c (Proc.devRef .tc main_arg10) := (W7_of_ne m ρ c main_arg10 (by decide))
    _ = W5 m ρ c (Proc.devRef .tc main_arg10) := (by keep_host hostOps3)
    _ = W4 m ρ c (Proc.devRef .tc main_arg10) := (W5_of_ne m ρ c main_arg10 (by decide))
    _ = W3 m ρ c (Proc.devRef .tc main_arg10) := (W4_of_ne m ρ c main_arg10 (by decide))
    _ = W2 m ρ c (Proc.devRef .tc main_arg10) := (by keep_host hostOps1)
    _ = W1 m ρ c (Proc.devRef .tc main_arg10) := (W2_of_ne m ρ c main_arg10 (by decide))
    _ = W0 m ρ c (Proc.devRef .tc main_arg10) := (by keep_host hostOps0)
    _ = m ((c : Thread nD τ).loc main_arg10) := rfl

theorem W11_arg11 (c : Dev nD) : W11 m ρ c (Proc.devRef .tc main_arg11) = m ((c : Thread nD τ).loc main_arg11) :=
  calc W11 m ρ c (Proc.devRef .tc main_arg11)
    _ = W10 m ρ c (Proc.devRef .tc main_arg11) := (by keep_host hostOps6)
    _ = W9 m ρ c (Proc.devRef .tc main_arg11) := (W10_of_ne m ρ c main_arg11 (by decide))
    _ = W8 m ρ c (Proc.devRef .tc main_arg11) := (by keep_host hostOps5)
    _ = W7 m ρ c (Proc.devRef .tc main_arg11) := (W8_of_ne m ρ c main_arg11 (by decide))
    _ = W6 m ρ c (Proc.devRef .tc main_arg11) := (W7_of_ne m ρ c main_arg11 (by decide))
    _ = W5 m ρ c (Proc.devRef .tc main_arg11) := (by keep_host hostOps3)
    _ = W4 m ρ c (Proc.devRef .tc main_arg11) := (W5_of_ne m ρ c main_arg11 (by decide))
    _ = W3 m ρ c (Proc.devRef .tc main_arg11) := (W4_of_ne m ρ c main_arg11 (by decide))
    _ = W2 m ρ c (Proc.devRef .tc main_arg11) := (by keep_host hostOps1)
    _ = W1 m ρ c (Proc.devRef .tc main_arg11) := (W2_of_ne m ρ c main_arg11 (by decide))
    _ = W0 m ρ c (Proc.devRef .tc main_arg11) := (by keep_host hostOps0)
    _ = m ((c : Thread nD τ).loc main_arg11) := rfl

theorem W11_arg12 (c : Dev nD) : W11 m ρ c (Proc.devRef .tc main_arg12) = m ((c : Thread nD τ).loc main_arg12) :=
  calc W11 m ρ c (Proc.devRef .tc main_arg12)
    _ = W10 m ρ c (Proc.devRef .tc main_arg12) := (by keep_host hostOps6)
    _ = W9 m ρ c (Proc.devRef .tc main_arg12) := (W10_of_ne m ρ c main_arg12 (by decide))
    _ = W8 m ρ c (Proc.devRef .tc main_arg12) := (by keep_host hostOps5)
    _ = W7 m ρ c (Proc.devRef .tc main_arg12) := (W8_of_ne m ρ c main_arg12 (by decide))
    _ = W6 m ρ c (Proc.devRef .tc main_arg12) := (W7_of_ne m ρ c main_arg12 (by decide))
    _ = W5 m ρ c (Proc.devRef .tc main_arg12) := (by keep_host hostOps3)
    _ = W4 m ρ c (Proc.devRef .tc main_arg12) := (W5_of_ne m ρ c main_arg12 (by decide))
    _ = W3 m ρ c (Proc.devRef .tc main_arg12) := (W4_of_ne m ρ c main_arg12 (by decide))
    _ = W2 m ρ c (Proc.devRef .tc main_arg12) := (by keep_host hostOps1)
    _ = W1 m ρ c (Proc.devRef .tc main_arg12) := (W2_of_ne m ρ c main_arg12 (by decide))
    _ = W0 m ρ c (Proc.devRef .tc main_arg12) := (by keep_host hostOps0)
    _ = m ((c : Thread nD τ).loc main_arg12) := rfl

end Cert.KernelIdeal.Keep

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«111953_j85650237817597_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«111953_j85650237817597_1_alg».proof.Proof.LibMatmulPlain
import proofs.«111953_j85650237817597_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowLayers.lean ====
/-
  Three row-local layers over the extended reals, read at one entry of a block of rows.

  Each of the three layers below produces row R of its result from row R of its first operand alone (and from the
  whole of its small second and third operands). So when a block `a` of `m` rows agrees with the rows of a whole
  array `A` of `M` rows it was cut from — row `r` of the block is row `R` of the array —, the layer applied to the
  block, read at row `r`, is the layer applied to the whole array, read at row `R`:

  * the product with a matrix: the matrix unit's product into a zero accumulator (its operands narrowed to a shorter
    float format first, which changes nothing here) against the host's dot_general: both are Σ_k A(R,k) · B(k,q);
  * the bias and the activation: tanh (x(r,q) + b(q)), the bias held as one row and spread over the rows on one side,
    broadcast to one row and then over the rows on the other;
  * the product plus the bias: Σ_k A(R,k) · B(k,q) + b(q).

  No law of the extended reals beyond rewriting equal summands is used: the two sides are the same expression.
-/
import proofs.«111953_j85650237817597_1_alg».proof.Proof.LibMatmulPlain
import proofs.«111953_j85650237817597_1_alg».proof.Proof.LibHostDotPlain
import proofs.«111953_j85650237817597_1_alg».proof.Proof.LibDense
import Idealize.ShloMosaic.Lib.ValueLayout
import Idealize.ShloMosaic.Lib.Pipeline.Value

noncomputable section

open scoped BigOperators

namespace Idealize.ShloMosaic.RowLayers

open Idealize.ShloMosaic Idealize.ShloMosaic.ValueIdx

variable {M m K N : Nat}

/-- Row `r` of the block's product is row `R` of the whole product: the same row-by-column sums. -/
theorem product_rows (A : FVec Ideal ⟨2, ![M, K]⟩ .f32) (B : FVec Ideal ⟨2, ![K, N]⟩ .f32)
    (a : FVec Ideal ⟨2, ![m, K]⟩ .f32) (hn : FTy.bf16.bits < FTy.f32.bits) (r : Fin m) (R : Fin M) (q : Fin N)
    (ha : ∀ k : Fin K, a (ix2 r k) = A (ix2 R k)) :
    matmul (DotDims.plain m K N) none (truncf .bf16 a hn) (truncf .bf16 B hn)
        (constant (F := Ideal) ⟨2, ![m, N]⟩ .f32 0x00000000#32) (ix2 r q)
      = Host.dotGeneral (F := Ideal) (DotDims.plain M K N) none A B (ix2 R q) := by
  rw [MatmulPlain.matmul_zero_apply, HostDotPlain.dotGeneral_apply]
  refine Finset.sum_congr rfl fun k _ => ?_
  show a (ix2 r k) * B (ix2 k q) = A (ix2 R k) * B (ix2 k q)
  rw [ha k]

/-- Row `r` of tanh (block + bias) is row `R` of tanh (array + bias): tanh (x + b(q)) at equal x. -/
theorem bias_tanh_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : x (ix2 r q) = X (ix2 R q)) :
    tanh (addf (shapeCast ⟨2, ![m, N]⟩ x hs) (broadcastTo ⟨2, ![m, N]⟩ (shapeCast ⟨2, ![1, N]⟩ b hr) hb)) (ix2 r q)
      = Host.tanh (addf X (broadcastInDim ⟨2, ![M, N]⟩ ![0, 1] h2 (broadcastInDim ⟨2, ![1, N]⟩ ![1] h1 b))) (ix2 R q) := by
  show Ideal.tanh (shapeCast ⟨2, ![m, N]⟩ x hs (ix2 r q)
        + broadcastTo ⟨2, ![m, N]⟩ (shapeCast ⟨2, ![1, N]⟩ b hr) hb (ix2 r q))
      = Ideal.tanh (X (ix2 R q)
        + broadcastInDim ⟨2, ![M, N]⟩ ![0, 1] h2 (broadcastInDim ⟨2, ![1, N]⟩ ![1] h1 b) (ix2 R q))
  rw [shapeCast_self, broadcastTo_1b_ab_apply, shapeCast_a_1a_apply, Dense.bias_rows_apply, hx]

/-- Row `r` of the block's product plus the bias is row `R` of the whole product plus the bias. -/
theorem dense_rows (A : FVec Ideal ⟨2, ![M, K]⟩ .f32) (B : FVec Ideal ⟨2, ![K, N]⟩ .f32) (b : FVec Ideal ⟨1, ![N]⟩ .f32)
    (a : FVec Ideal ⟨2, ![m, K]⟩ .f32) (hn : FTy.bf16.bits < FTy.f32.bits)
    (hr : (⟨1, ![N]⟩ : Shape).ShapeCasts ⟨2, ![1, N]⟩) (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (ha : ∀ k : Fin K, a (ix2 r k) = A (ix2 R k)) :
    addf (matmul (DotDims.plain m K N) none (truncf .bf16 a hn) (truncf .bf16 B hn)
          (constant (F := Ideal) ⟨2, ![m, N]⟩ .f32 0x00000000#32))
        (broadcastTo ⟨2, ![m, N]⟩ (shapeCast ⟨2, ![1, N]⟩ b hr) hb) (ix2 r q)
      = addf (Host.dotGeneral (F := Ideal) (DotDims.plain M K N) none A B)
          (broadcastInDim ⟨2, ![M, N]⟩ ![0, 1] h2 (broadcastInDim ⟨2, ![1, N]⟩ ![1] h1 b)) (ix2 R q) := by
  rw [Dense.matmul_bias_apply, Dense.dot_bias_apply, shapeCast_a_1a_apply]
  congr 1
  refine Finset.sum_congr rfl fun k _ => ?_
  show a (ix2 r k) * B (ix2 k q) = A (ix2 R k) * B (ix2 k q)
  rw [ha k]

end Idealize.ShloMosaic.RowLayers

end
-- ==== Proof.Region0.lean ====
/-
  A pipelined matrix product: the node features times the first layer's weights, 5000 rows at a time.

  The call has 20 grid points. Point t takes rows 5000 t … 5000 t + 4999 of the [100000, 78] operand and the whole
  [78, 128] weight matrix, and writes rows 5000 t … 5000 t + 4999 of the [100000, 128] result: entry (r, q) of what it
  writes is the sum over k of operand (5000 t + r, k) times weight (k, q), which is entry (5000 t + r, q) of the whole
  product (narrowing the operands to a shorter float format changes nothing over the extended reals). The 20 blocks
  tile the result, so it ends holding the whole product.
-/
import proofs.«111953_j85650237817597_1_alg».proof.Proof.Gen.KernelIdeal.Frame
import proofs.«111953_j85650237817597_1_alg».proof.Proof.LibRowLayers
import Idealize.ShloMosaic.Lib.Pipeline.Value
import Idealize.ShloMosaic.Lib.ValueIdx

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of the operand and of the result at point t is t, every other block
    index is 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product. -/
abbrev G (c : Dev nD) : FVec Ideal S100000x128 .f32 :=
  Host.dotGeneral (F := Ideal) (φ₁ := .f32) (φ₂ := .f32) (DotDims.plain 100000 78 128) none (V c main_arg0 : FVec Ideal S100000x78 .f32) (V c main_arg3 : FVec Ideal S78x128 .f32)

/-- What point t writes back is block t of the whole product. -/
theorem flushed_eq (c : Dev nD) (t : Fin cfg0.N) :
    (dat0 V c).flushed 2 t = ((cfg0.win 2).blk t).view.read (Elt Ideal) (G V c) := by
  show (cfg0.win 2).cut (grid0.coords t) ((dat0 V c).after 2 t) = _
  rw [after0_2]
  unfold out0_2
  rw [View.canon_unit_zero hz]
  simp only [View.ld_unit_zero (S := S5000x78) hz, View.ld_unit_zero (S := S78x128) hz]
  obtain ⟨e0, e1, e2, e3, e4, e5⟩ := idx_facts t
  have ht : t.val < 20 := by have := t.isLt; have hN : cfg0.N = 20 := N_0; omega
  have hB : (iblk0 V c 1 t : FVec Ideal S78x128 .f32) = (V c main_arg3 : FVec Ideal S78x128 .f32) := by
    funext y
    show V c main_arg3 (((cfg0.win 1).blk t).view.emb y) = V c main_arg3 y
    refine congrArg _ ?_
    funext a; apply Fin.ext
    match a with
    | ⟨0, _⟩ => show win0_1.index t (0 : Fin 2) * 78 + 1 * (y 0).val = (y 0).val; omega
    | ⟨1, _⟩ => show win0_1.index t (1 : Fin 2) * 128 + 1 * (y 1).val = (y 1).val; omega
  funext j
  obtain ⟨r, q, rfl⟩ : ∃ (r : Fin 5000) (q : Fin 128), j = ix2 r q := ⟨j 0, j 1, eq_ix2 j⟩
  have hemb : ((cfg0.win 2).blk t).view.emb (ix2 r q) = (ix2 (⟨t.val * 5000 + r.val, by have := r.isLt; omega⟩ : Fin 100000) q : S100000x128.Idx) := by
    funext a; apply Fin.ext
    match a with
    | ⟨0, _⟩ => show win0_2.index t (0 : Fin 2) * 5000 + 1 * r.val = t.val * 5000 + r.val; omega
    | ⟨1, _⟩ => show win0_2.index t (1 : Fin 2) * 128 + 1 * q.val = q.val; omega
  show k0_pay1 (iblk0 V c 0 t) (iblk0 V c 1 t) (ix2 r q) = G V c (((cfg0.win 2).blk t).view.emb (ix2 r q))
  rw [hemb, hB]
  unfold k0_pay1
  change matmul (DotDims.plain 5000 78 128) none _ _ _ _ = _
  refine RowLayers.product_rows (V c main_arg0 : FVec Ideal S100000x78 .f32) (V c main_arg3 : FVec Ideal S78x128 .f32)
    (iblk0 V c 0 t : FVec Ideal S5000x78 .f32) bitsLt_bf16_f32 r ⟨t.val * 5000 + r.val, by have := r.isLt; omega⟩ q fun k => ?_
  show V c main_arg0 (((cfg0.win 0).blk t).view.emb (ix2 r k)) = V c main_arg0 _
  refine congrArg _ ?_
  funext a; apply Fin.ext
  match a with
  | ⟨0, _⟩ => show win0_0.index t (0 : Fin 2) * 5000 + 1 * r.val = t.val * 5000 + r.val; omega
  | ⟨1, _⟩ => show win0_0.index t (1 : Fin 2) * 78 + 1 * k.val = k.val; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The 20 blocks tile the result, so after the call it holds the whole product. -/
theorem arr (c : Dev nD) : (dat0 V c).arrAt 2 cfg0.N = G V c := by
  refine (dat0 V c).arrAt_eq_of_cover 2 (G V c) (fun t _ => flushed_eq V c t) fun i => ?_
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

end Cert.KernelIdeal.Region0

end
-- ==== Proof.LibReluLayers.lean ====
/-
  Row-local layers with a rectifier, over the extended reals, read at one entry of a block of rows.

  The rectifier is the maximum with zero, entry by entry. Written for the vector unit it is the maximum with a zero scalar
  spread over the block; written for the host it is the maximum with a zero constant broadcast over the array. Both are
  max (x, 0) at every entry, so a rectified layer applied to a block of rows, read at row r, is the layer applied to the
  whole array, read at the row R the block's row r was cut from:

  * the bias and the rectifier: max (x(r,q) + b(q), 0);
  * a two-layer perceptron head on whole arrays: max (Σ_j P(p,j) · U(j,k) + u(k), 0) rectified, then
    Σ_k (…) · W(k,q) + w(q).

  No law of the extended reals beyond rewriting equal summands is used.
-/
import proofs.«111953_j85650237817597_1_alg».proof.Proof.LibRowLayers

noncomputable section

open scoped BigOperators

namespace Idealize.ShloMosaic.ReluLayers

open Idealize.ShloMosaic Idealize.ShloMosaic.ValueIdx

variable {M m K N L : Nat}

/-- The zero scalar spread over a block and the zero constant broadcast over an array agree at every pair of entries. -/
theorem zero_splat_eq (h0 : (⟨0, ![]⟩ : Shape).BroadcastsInDim ⟨2, ![M, N]⟩ ![]) (j : (⟨2, ![m, N]⟩ : Shape).Idx)
    (J : (⟨2, ![M, N]⟩ : Shape).Idx) :
    broadcast ⟨2, ![m, N]⟩ (Scalar.ofBits (F := Ideal) .f32 0x00000000#32) j
      = broadcastInDim ⟨2, ![M, N]⟩ ![] h0 (constant (F := Ideal) ⟨0, ![]⟩ .f32 0x00000000#32) J := rfl

/-- The rectifier on a block against the rectifier on the array: equal where the operands are. -/
theorem relu_rows (X : FVec Ideal ⟨2, ![M, N]⟩ .f32) (x : FVec Ideal ⟨2, ![m, N]⟩ .f32)
    (h0 : (⟨0, ![]⟩ : Shape).BroadcastsInDim ⟨2, ![M, N]⟩ ![])
    (j : (⟨2, ![m, N]⟩ : Shape).Idx) (J : (⟨2, ![M, N]⟩ : Shape).Idx) (hx : x j = X J) :
    maximumf x (broadcast ⟨2, ![m, N]⟩ (Scalar.ofBits (F := Ideal) .f32 0x00000000#32)) j
      = maximumf X (broadcastInDim ⟨2, ![M, N]⟩ ![] h0 (constant (F := Ideal) ⟨0, ![]⟩ .f32 0x00000000#32)) J := by
  show FloatOps.maximumf (x j) (broadcast ⟨2, ![m, N]⟩ (Scalar.ofBits (F := Ideal) .f32 0x00000000#32) j)
    = FloatOps.maximumf (X J) (broadcastInDim ⟨2, ![M, N]⟩ ![] h0 (constant (F := Ideal) ⟨0, ![]⟩ .f32 0x00000000#32) J)
  rw [hx, zero_splat_eq h0 j J]

/-- Row r of the rectified (block + bias) is row R of the rectified (array + bias). -/
theorem bias_relu_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (r : Fin m) (R : Fin M) (q : Fin N) (hx : x (ix2 r q) = X (ix2 R q)) :
    maximumf (addf (shapeCast ⟨2, ![m, N]⟩ x hs) (broadcastTo ⟨2, ![m, N]⟩ (shapeCast ⟨2, ![1, N]⟩ b hr) hb))
        (broadcast ⟨2, ![m, N]⟩ (Scalar.ofBits (F := Ideal) .f32 0x00000000#32)) (ix2 r q)
      = maximumf (addf X (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32)) (ix2 R q) := by
  refine relu_rows _ _ h0 (ix2 r q) (ix2 R q) ?_
  show shapeCast ⟨2, ![m, N]⟩ x hs (ix2 r q) + broadcastTo ⟨2, ![m, N]⟩ (shapeCast ⟨2, ![1, N]⟩ b hr) hb (ix2 r q)
      = X (ix2 R q) + broadcastInDim ⟨2, ![M, N]⟩ ![0, 1] h2 (broadcastInDim ⟨2, ![1, N]⟩ ![1] h1 b) (ix2 R q)
  rw [shapeCast_self, broadcastTo_1b_ab_apply, shapeCast_a_1a_apply, Dense.bias_rows_apply, hx]

/-- A two-layer perceptron head on whole arrays, the matrix unit's spelling against the host's: the first dense layer
    rectified, then the second dense layer. Entry (p, q) of both is Σ_k max (Σ_j P(p,j) · U(j,k) + u(k), 0) · W(k,q) + w(q). -/
theorem head_eq (P : FVec Ideal ⟨2, ![M, K]⟩ .f32) (U : FVec Ideal ⟨2, ![K, L]⟩ .f32) (u : FVec Ideal ⟨1, ![L]⟩ .f32)
    (W : FVec Ideal ⟨2, ![L, N]⟩ .f32) (w : FVec Ideal ⟨1, ![N]⟩ .f32) (hn : FTy.bf16.bits < FTy.f32.bits)
    (hs : (⟨2, ![M, K]⟩ : Shape).ShapeCasts ⟨2, ![M, K]⟩)
    (hru : (⟨1, ![L]⟩ : Shape).ShapeCasts ⟨2, ![1, L]⟩) (hbu : (⟨2, ![1, L]⟩ : Shape).Broadcasts ⟨2, ![M, L]⟩)
    (h1u : (⟨1, ![L]⟩ : Shape).BroadcastsInDim ⟨2, ![1, L]⟩ ![1])
    (h2u : (⟨2, ![1, L]⟩ : Shape).BroadcastsInDim ⟨2, ![M, L]⟩ ![0, 1])
    (h0 : (⟨0, ![]⟩ : Shape).BroadcastsInDim ⟨2, ![M, L]⟩ ![])
    (hrw : (⟨1, ![N]⟩ : Shape).ShapeCasts ⟨2, ![1, N]⟩) (hbw : (⟨2, ![1, N]⟩ : Shape).Broadcasts ⟨2, ![M, N]⟩)
    (h1w : (⟨1, ![N]⟩ : Shape).BroadcastsInDim ⟨2, ![1, N]⟩ ![1])
    (h2w : (⟨2, ![1, N]⟩ : Shape).BroadcastsInDim ⟨2, ![M, N]⟩ ![0, 1]) :
    addf (matmul (DotDims.plain M L N) none
          (truncf .bf16 (maximumf (addf (matmul (DotDims.plain M K L) none (truncf .bf16 (shapeCast ⟨2, ![M, K]⟩ P hs) hn) (truncf .bf16 U hn)
                (constant (F := Ideal) ⟨2, ![M, L]⟩ .f32 0x00000000#32))
              (broadcastTo ⟨2, ![M, L]⟩ (shapeCast ⟨2, ![1, L]⟩ u hru) hbu))
            (broadcast ⟨2, ![M, L]⟩ (Scalar.ofBits (F := Ideal) .f32 0x00000000#32))) hn)
          (truncf .bf16 W hn) (constant (F := Ideal) ⟨2, ![M, N]⟩ .f32 0x00000000#32))
        (broadcastTo ⟨2, ![M, N]⟩ (shapeCast ⟨2, ![1, N]⟩ w hrw) hbw)
      = addf (Host.dotGeneral (F := Ideal) (DotDims.plain M L N) none
          (maximumf (addf (Host.dotGeneral (F := Ideal) (DotDims.plain M K L) none P U)
              (broadcastInDim ⟨2, ![M, L]⟩ ![0, 1] h2u (broadcastInDim ⟨2, ![1, L]⟩ ![1] h1u u)))
            (broadcastInDim ⟨2, ![M, L]⟩ ![] h0 (constant (F := Ideal) ⟨0, ![]⟩ .f32 0x00000000#32))) W)
          (broadcastInDim ⟨2, ![M, N]⟩ ![0, 1] h2w (broadcastInDim ⟨2, ![1, N]⟩ ![1] h1w w)) := by
  funext j
  obtain ⟨p, q, rfl⟩ : ∃ (p : Fin M) (q : Fin N), j = ix2 p q := ⟨j 0, j 1, eq_ix2 j⟩
  refine RowLayers.dense_rows _ W w _ hn hrw hbw h1w h2w p p q fun k => ?_
  refine relu_rows _ _ h0 (ix2 p k) (ix2 p k) ?_
  rw [shapeCast_self]
  exact RowLayers.dense_rows P U u P hn hru hbu h1u h2u p p k fun _ => rfl

end Idealize.ShloMosaic.ReluLayers

end
-- ==== Proof.Region1.lean ====
/-
  A pipelined bias-and-rectifier pass: the first layer's aggregate plus its bias, rectified, 5000 rows at a time.

  The call has 20 grid points. Point t takes rows 5000 t … 5000 t + 4999 of the [100000, 128] aggregate and the whole bias
  vector, and writes rows 5000 t … 5000 t + 4999 of the [100000, 128] result: entry (r, q) of what it writes is
  max (aggregate (5000 t + r, q) + bias (q), 0), which is entry (5000 t + r, q) of the rectified sum of the whole
  aggregate and the bias spread over the rows. The 20 blocks tile the result, so it ends holding that whole array.
-/
import proofs.«111953_j85650237817597_1_alg».proof.Proof.Gen.KernelIdeal.Frame
import proofs.«111953_j85650237817597_1_alg».proof.Proof.LibReluLayers
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the row block of the operand and of the result at point t is t, every other block
    index is 0. -/
theorem idx_facts : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

theorem hb1 : S128.BroadcastsInDim S1x128 (![1] : Fin S128.rank → Fin S1x128.rank) := by decide
theorem hb2 : S1x128.BroadcastsInDim S100000x128 (![0, 1] : Fin S1x128.rank → Fin S100000x128.rank) := by decide
theorem hb0 : S_.BroadcastsInDim S100000x128 (![] : Fin S_.rank → Fin S100000x128.rank) := by decide

/-- The whole layer output: the aggregate plus the bias spread over the rows, rectified. -/
abbrev G (c : Dev nD) : FVec Ideal S100000x128 .f32 :=
  maximumf (addf (V c main_v40 : FVec Ideal S100000x128 .f32)
      (broadcastInDim S100000x128 ![0, 1] hb2 (broadcastInDim S1x128 ![1] hb1 (V c main_arg4 : FVec Ideal S128 .f32))))
    (broadcastInDim S100000x128 ![] hb0 (constant (F := Ideal) S_ .f32 0x00000000#32))

/-- What point t writes back is block t of the whole layer output. -/
theorem flushed_eq (c : Dev nD) (t : Fin cfg1.N) :
    (dat1 V c).flushed 2 t = ((cfg1.win 2).blk t).view.read (Elt Ideal) (G V c) := by
  show (cfg1.win 2).cut (grid1.coords t) ((dat1 V c).after 2 t) = _
  rw [after1_2]
  unfold out1_2
  rw [View.canon_unit_zero hz]
  simp only [View.ld_unit_zero (S := S5000x128) hz, View.ld_unit_zero (S := S128) hz1]
  obtain ⟨e0, e1, e2, e3, e4⟩ := idx_facts t
  have ht : t.val < 20 := by have := t.isLt; have hN : cfg1.N = 20 := N_1; omega
  have hB : (iblk1 V c 1 t : FVec Ideal S128 .f32) = (V c main_arg4 : FVec Ideal S128 .f32) := by
    funext y
    show V c main_arg4 (((cfg1.win 1).blk t).view.emb y) = V c main_arg4 y
    refine congrArg _ ?_
    funext a; apply Fin.ext
    match a with
    | ⟨0, _⟩ => show win1_1.index t (0 : Fin 1) * 128 + 1 * (y 0).val = (y 0).val; omega
  funext j
  obtain ⟨r, q, rfl⟩ : ∃ (r : Fin 5000) (q : Fin 128), j = ix2 r q := ⟨j 0, j 1, eq_ix2 j⟩
  have hemb : ((cfg1.win 2).blk t).view.emb (ix2 r q) = (ix2 (⟨t.val * 5000 + r.val, by have := r.isLt; omega⟩ : Fin 100000) q : S100000x128.Idx) := by
    funext a; apply Fin.ext
    match a with
    | ⟨0, _⟩ => show win1_2.index t (0 : Fin 2) * 5000 + 1 * r.val = t.val * 5000 + r.val; omega
    | ⟨1, _⟩ => show win1_2.index t (1 : Fin 2) * 128 + 1 * q.val = q.val; omega
  show k1_pay1 (iblk1 V c 0 t) (iblk1 V c 1 t) (ix2 r q) = G V c (((cfg1.win 2).blk t).view.emb (ix2 r q))
  rw [hemb, hB]
  unfold k1_pay1
  refine ReluLayers.bias_relu_rows (V c main_v40 : FVec Ideal S100000x128 .f32) (V c main_arg4 : FVec Ideal S128 .f32)
    (iblk1 V c 0 t : FVec Ideal S5000x128 .f32) _ _ _ _ _ _ r ⟨t.val * 5000 + r.val, by have := r.isLt; omega⟩ q ?_
  show V c main_v40 (((cfg1.win 0).blk t).view.emb (ix2 r q)) = V c main_v40 _
  refine congrArg _ ?_
  funext a; apply Fin.ext
  match a with
  | ⟨0, _⟩ => show win1_0.index t (0 : Fin 2) * 5000 + 1 * r.val = t.val * 5000 + r.val; omega
  | ⟨1, _⟩ => show win1_0.index t (1 : Fin 2) * 128 + 1 * q.val = q.val; omega

/-- An index of the result is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v41).slice (win1_2.rect t)).set ↔ _
  rw [View.set_slice_whole, Rect.mem_set_unit]
  exact Iff.rfl

/-- The 20 blocks tile the result, so after the call it holds the whole layer output. -/
theorem arr (c : Dev nD) : (dat1 V c).arrAt 2 cfg1.N = G V c := by
  refine (dat1 V c).arrAt_eq_of_cover 2 (G V c) (fun t _ => flushed_eq V c t) fun i => ?_
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4⟩ := idx_facts t
  have e3' : win1_2.index t (0 : Fin 2) = (i 0).val / 5000 := e3
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The same, with the aggregate and the bias the call finds given by name. -/
theorem arr_of (c : Dev nD) (X : FVec Ideal S100000x128 .f32) (b : FVec Ideal S128 .f32)
    (hX : (V c main_v40 : FVec Ideal S100000x128 .f32) = X) (hb : (V c main_arg4 : FVec Ideal S128 .f32) = b) :
    (dat1 V c).arrAt 2 cfg1.N
      = maximumf (addf X (broadcastInDim S100000x128 ![0, 1] hb2 (broadcastInDim S1x128 ![1] hb1 b)))
          (broadcastInDim S100000x128 ![] hb0 (constant (F := Ideal) S_ .f32 0x00000000#32)) := by
  subst hX hb
  exact arr V c

end Cert.KernelIdeal.Region1

end
-- ==== Proof.Region2.lean ====
/-
  A pipelined matrix product: the first layer's output times the second layer's weights, 5000 rows at a time.

  The call has 20 grid points. Point t takes rows 5000 t … 5000 t + 4999 of the [100000, 128] operand and the whole
  [128, 256] weight matrix, and writes rows 5000 t … 5000 t + 4999 of the [100000, 256] result: entry (r, q) of what it
  writes is the sum over k of operand (5000 t + r, k) times weight (k, q), which is entry (5000 t + r, q) of the whole
  product (narrowing the operands to a shorter float format changes nothing over the extended reals). The 20 blocks
  tile the result, so it ends holding the whole product.
-/
import proofs.«111953_j85650237817597_1_alg».proof.Proof.Gen.KernelIdeal.Frame
import proofs.«111953_j85650237817597_1_alg».proof.Proof.LibRowLayers
import Idealize.ShloMosaic.Lib.Pipeline.Value
import Idealize.ShloMosaic.Lib.ValueIdx

set_option maxRecDepth 16384

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of the operand and of the result at point t is t, every other block
    index is 0. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product. -/
abbrev G (c : Dev nD) : FVec Ideal S100000x256 .f32 :=
  Host.dotGeneral (F := Ideal) (φ₁ := .f32) (φ₂ := .f32) (DotDims.plain 100000 128 256) none (V c main_v41 : FVec Ideal S100000x128 .f32) (V c main_arg5 : FVec Ideal S128x256 .f32)

/-- What point t writes back is block t of the whole product. -/
theorem flushed_eq (c : Dev nD) (t : Fin cfg2.N) :
    (dat2 V c).flushed 2 t = ((cfg2.win 2).blk t).view.read (Elt Ideal) (G V c) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x256) hz]
  obtain ⟨e0, e1, e2, e3, e4, e5⟩ := idx_facts t
  have ht : t.val < 20 := by have := t.isLt; have hN : cfg2.N = 20 := N_2; omega
  have hB : (iblk2 V c 1 t : FVec Ideal S128x256 .f32) = (V c main_arg5 : FVec Ideal S128x256 .f32) := by
    funext y
    show V c main_arg5 (((cfg2.win 1).blk t).view.emb y) = V c main_arg5 y
    refine congrArg _ ?_
    funext a; apply Fin.ext
    match a with
    | ⟨0, _⟩ => show win2_1.index t (0 : Fin 2) * 128 + 1 * (y 0).val = (y 0).val; omega
    | ⟨1, _⟩ => show win2_1.index t (1 : Fin 2) * 256 + 1 * (y 1).val = (y 1).val; omega
  funext j
  obtain ⟨r, q, rfl⟩ : ∃ (r : Fin 5000) (q : Fin 256), j = ix2 r q := ⟨j 0, j 1, eq_ix2 j⟩
  have hemb : ((cfg2.win 2).blk t).view.emb (ix2 r q) = (ix2 (⟨t.val * 5000 + r.val, by have := r.isLt; omega⟩ : Fin 100000) q : S100000x256.Idx) := by
    funext a; apply Fin.ext
    match a with
    | ⟨0, _⟩ => show win2_2.index t (0 : Fin 2) * 5000 + 1 * r.val = t.val * 5000 + r.val; omega
    | ⟨1, _⟩ => show win2_2.index t (1 : Fin 2) * 256 + 1 * q.val = q.val; omega
  show k2_pay1 (iblk2 V c 0 t) (iblk2 V c 1 t) (ix2 r q) = G V c (((cfg2.win 2).blk t).view.emb (ix2 r q))
  rw [hemb, hB]
  unfold k2_pay1
  change matmul (DotDims.plain 5000 128 256) none _ _ _ _ = _
  refine RowLayers.product_rows (V c main_v41 : FVec Ideal S100000x128 .f32) (V c main_arg5 : FVec Ideal S128x256 .f32)
    (shapeCast S5000x128 (iblk2 V c 0 t : FVec Ideal S5000x128 .f32) shapeCasts_S5000x128_S5000x128) bitsLt_bf16_f32 r ⟨t.val * 5000 + r.val, by have := r.isLt; omega⟩ q fun k => ?_
  refine (congrFun (shapeCast_self (s := S5000x128) (iblk2 V c 0 t : FVec Ideal S5000x128 .f32) shapeCasts_S5000x128_S5000x128) (ix2 r k)).trans ?_
  show V c main_v41 (((cfg2.win 0).blk t).view.emb (ix2 r k)) = V c main_v41 _
  refine congrArg _ ?_
  funext a; apply Fin.ext
  match a with
  | ⟨0, _⟩ => show win2_0.index t (0 : Fin 2) * 5000 + 1 * r.val = t.val * 5000 + r.val; omega
  | ⟨1, _⟩ => show win2_0.index t (1 : Fin 2) * 128 + 1 * k.val = k.val; omega

/-- An index of the result is in point t's block iff each coordinate is in the block's range on its axis. -/
theorem mem_blk (t : Fin cfg2.N) (i : S100000x256.Idx) :
    i ∈ ((cfg2.win 2).blk t).view.set ↔ ∀ a : Fin 2, win2_2.index t a * S5000x256.size a ≤ (i a).val ∧ (i a).val < win2_2.index t a * S5000x256.size a + S5000x256.size a := by
  show i ∈ ((View.whole main_v42).slice (win2_2.rect t)).set ↔ _
  rw [View.set_slice_whole, Rect.mem_set_unit]
  exact Iff.rfl

/-- The 20 blocks tile the result, so after the call it holds the whole product. -/
theorem arr (c : Dev nD) : (dat2 V c).arrAt 2 cfg2.N = G V c := by
  refine (dat2 V c).arrAt_eq_of_cover 2 (G V c) (fun t _ => flushed_eq V c t) fun i => ?_
  have hi0 : (i 0).val < 100000 := (i 0).isLt
  have hi1 : (i 1).val < 256 := (i 1).isLt
  have hN : cfg2.N = 20 := N_2
  let t : Fin cfg2.N := ⟨(i 0).val / 5000, by rw [hN]; omega⟩
  obtain ⟨e0, e1, e2, e3, e4, e5⟩ := idx_facts t
  have e4' : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 256 ≤ (i 1).val ∧ (i 1).val < win2_2.index t (1 : Fin 2) * 256 + 256; omega

end Cert.KernelIdeal.Region2

end
-- ==== Proof.Region3.lean ====
/-
  A pipelined bias-and-rectifier pass: the second layer's aggregate plus its bias, rectified, 5000 rows at a time.

  The call has 20 grid points. Point t takes rows 5000 t … 5000 t + 4999 of the [100000, 256] aggregate and the whole bias
  vector, and writes rows 5000 t … 5000 t + 4999 of the [100000, 256] result: entry (r, q) of what it writes is
  max (aggregate (5000 t + r, q) + bias (q), 0), which is entry (5000 t + r, q) of the rectified sum of the whole
  aggregate and the bias spread over the rows. The 20 blocks tile the result, so it ends holding that whole array.
-/
import proofs.«111953_j85650237817597_1_alg».proof.Proof.Gen.KernelIdeal.Frame
import proofs.«111953_j85650237817597_1_alg».proof.Proof.LibReluLayers
import Idealize.ShloMosaic.Lib.Pipeline.Value
import Idealize.ShloMosaic.Lib.ValueIdx

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the row block of the operand and of the result at point t is t, every other block
    index is 0. -/
theorem idx_facts : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

theorem hb1 : S256.BroadcastsInDim S1x256 (![1] : Fin S256.rank → Fin S1x256.rank) := by decide
theorem hb2 : S1x256.BroadcastsInDim S100000x256 (![0, 1] : Fin S1x256.rank → Fin S100000x256.rank) := by decide
theorem hb0 : S_.BroadcastsInDim S100000x256 (![] : Fin S_.rank → Fin S100000x256.rank) := by decide

/-- The whole layer output: the aggregate plus the bias spread over the rows, rectified. -/
abbrev G (c : Dev nD) : FVec Ideal S100000x256 .f32 :=
  maximumf (addf (V c main_v78 : FVec Ideal S100000x256 .f32)
      (broadcastInDim S100000x256 ![0, 1] hb2 (broadcastInDim S1x256 ![1] hb1 (V c main_arg6 : FVec Ideal S256 .f32))))
    (broadcastInDim S100000x256 ![] hb0 (constant (F := Ideal) S_ .f32 0x00000000#32))

/-- What point t writes back is block t of the whole layer output. -/
theorem flushed_eq (c : Dev nD) (t : Fin cfg3.N) :
    (dat3 V c).flushed 2 t = ((cfg3.win 2).blk t).view.read (Elt Ideal) (G V c) := by
  show (cfg3.win 2).cut (grid3.coords t) ((dat3 V c).after 2 t) = _
  rw [after3_2]
  unfold out3_2
  rw [View.canon_unit_zero hz]
  simp only [View.ld_unit_zero (S := S5000x256) hz, View.ld_unit_zero (S := S256) hz1]
  obtain ⟨e0, e1, e2, e3, e4⟩ := idx_facts t
  have ht : t.val < 20 := by have := t.isLt; have hN : cfg3.N = 20 := N_3; omega
  have hB : (iblk3 V c 1 t : FVec Ideal S256 .f32) = (V c main_arg6 : FVec Ideal S256 .f32) := by
    funext y
    show V c main_arg6 (((cfg3.win 1).blk t).view.emb y) = V c main_arg6 y
    refine congrArg _ ?_
    funext a; apply Fin.ext
    match a with
    | ⟨0, _⟩ => show win3_1.index t (0 : Fin 1) * 256 + 1 * (y 0).val = (y 0).val; omega
  funext j
  obtain ⟨r, q, rfl⟩ : ∃ (r : Fin 5000) (q : Fin 256), j = ix2 r q := ⟨j 0, j 1, eq_ix2 j⟩
  have hemb : ((cfg3.win 2).blk t).view.emb (ix2 r q) = (ix2 (⟨t.val * 5000 + r.val, by have := r.isLt; omega⟩ : Fin 100000) q : S100000x256.Idx) := by
    funext a; apply Fin.ext
    match a with
    | ⟨0, _⟩ => show win3_2.index t (0 : Fin 2) * 5000 + 1 * r.val = t.val * 5000 + r.val; omega
    | ⟨1, _⟩ => show win3_2.index t (1 : Fin 2) * 256 + 1 * q.val = q.val; omega
  show k3_pay1 (iblk3 V c 0 t) (iblk3 V c 1 t) (ix2 r q) = G V c (((cfg3.win 2).blk t).view.emb (ix2 r q))
  rw [hemb, hB]
  unfold k3_pay1
  refine ReluLayers.bias_relu_rows (V c main_v78 : FVec Ideal S100000x256 .f32) (V c main_arg6 : FVec Ideal S256 .f32)
    (iblk3 V c 0 t : FVec Ideal S5000x256 .f32) _ _ _ _ _ _ r ⟨t.val * 5000 + r.val, by have := r.isLt; omega⟩ q ?_
  show V c main_v78 (((cfg3.win 0).blk t).view.emb (ix2 r q)) = V c main_v78 _
  refine congrArg _ ?_
  funext a; apply Fin.ext
  match a with
  | ⟨0, _⟩ => show win3_0.index t (0 : Fin 2) * 5000 + 1 * r.val = t.val * 5000 + r.val; omega
  | ⟨1, _⟩ => show win3_0.index t (1 : Fin 2) * 256 + 1 * q.val = q.val; omega

/-- An index of the result is in point t's block iff each coordinate is in the block's range on its axis. -/
theorem mem_blk (t : Fin cfg3.N) (i : S100000x256.Idx) :
    i ∈ ((cfg3.win 2).blk t).view.set ↔ ∀ a : Fin 2, win3_2.index t a * S5000x256.size a ≤ (i a).val ∧ (i a).val < win3_2.index t a * S5000x256.size a + S5000x256.size a := by
  show i ∈ ((View.whole main_v79).slice (win3_2.rect t)).set ↔ _
  rw [View.set_slice_whole, Rect.mem_set_unit]
  exact Iff.rfl

/-- The 20 blocks tile the result, so after the call it holds the whole layer output. -/
theorem arr (c : Dev nD) : (dat3 V c).arrAt 2 cfg3.N = G V c := by
  refine (dat3 V c).arrAt_eq_of_cover 2 (G V c) (fun t _ => flushed_eq V c t) fun i => ?_
  have hi0 : (i 0).val < 100000 := (i 0).isLt
  have hi1 : (i 1).val < 256 := (i 1).isLt
  have hN : cfg3.N = 20 := N_3
  let t : Fin cfg3.N := ⟨(i 0).val / 5000, by rw [hN]; omega⟩
  obtain ⟨e0, e1, e2, e3, e4⟩ := idx_facts t
  have e3' : win3_2.index t (0 : Fin 2) = (i 0).val / 5000 := e3
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 256 ≤ (i 1).val ∧ (i 1).val < win3_2.index t (1 : Fin 2) * 256 + 256; omega

/-- The same, with the aggregate and the bias the call finds given by name. -/
theorem arr_of (c : Dev nD) (X : FVec Ideal S100000x256 .f32) (b : FVec Ideal S256 .f32)
    (hX : (V c main_v78 : FVec Ideal S100000x256 .f32) = X) (hb : (V c main_arg6 : FVec Ideal S256 .f32) = b) :
    (dat3 V c).arrAt 2 cfg3.N
      = maximumf (addf X (broadcastInDim S100000x256 ![0, 1] hb2 (broadcastInDim S1x256 ![1] hb1 b)))
          (broadcastInDim S100000x256 ![] hb0 (constant (F := Ideal) S_ .f32 0x00000000#32)) := by
  subst hX hb
  exact arr V c

end Cert.KernelIdeal.Region3

end
-- ==== Proof.Region4.lean ====
/-
  A pipelined matrix product: the second layer's output times the third layer's weights, 5000 rows at a time.

  The call has 20 grid points. Point t takes rows 5000 t … 5000 t + 4999 of the [100000, 256] operand and the whole
  [256, 128] weight matrix, and writes rows 5000 t … 5000 t + 4999 of the [100000, 128] result: entry (r, q) of what it
  writes is the sum over k of operand (5000 t + r, k) times weight (k, q), which is entry (5000 t + r, q) of the whole
  product (narrowing the operands to a shorter float format changes nothing over the extended reals). The 20 blocks
  tile the result, so it ends holding the whole product.
-/
import proofs.«111953_j85650237817597_1_alg».proof.Proof.Gen.KernelIdeal.Frame
import proofs.«111953_j85650237817597_1_alg».proof.Proof.LibRowLayers
import Idealize.ShloMosaic.Lib.Pipeline.Value
import Idealize.ShloMosaic.Lib.ValueIdx

set_option maxRecDepth 16384

noncomputable section

namespace Cert.KernelIdeal.Region4

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the row block of the operand and of the result at point t is t, every other block
    index is 0. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The whole product. -/
abbrev G (c : Dev nD) : FVec Ideal S100000x128 .f32 :=
  Host.dotGeneral (F := Ideal) (φ₁ := .f32) (φ₂ := .f32) (DotDims.plain 100000 256 128) none (V c main_v79 : FVec Ideal S100000x256 .f32) (V c main_arg7 : FVec Ideal S256x128 .f32)

/-- What point t writes back is block t of the whole product. -/
theorem flushed_eq (c : Dev nD) (t : Fin cfg4.N) :
    (dat4 V c).flushed 2 t = ((cfg4.win 2).blk t).view.read (Elt Ideal) (G V c) := by
  show (cfg4.win 2).cut (grid4.coords t) ((dat4 V c).after 2 t) = _
  rw [after4_2]
  unfold out4_2
  rw [View.canon_unit_zero hz]
  simp only [View.ld_unit_zero (S := S5000x256) hz, View.ld_unit_zero (S := S256x128) hz]
  obtain ⟨e0, e1, e2, e3, e4, e5⟩ := idx_facts t
  have ht : t.val < 20 := by have := t.isLt; have hN : cfg4.N = 20 := N_4; omega
  have hB : (iblk4 V c 1 t : FVec Ideal S256x128 .f32) = (V c main_arg7 : FVec Ideal S256x128 .f32) := by
    funext y
    show V c main_arg7 (((cfg4.win 1).blk t).view.emb y) = V c main_arg7 y
    refine congrArg _ ?_
    funext a; apply Fin.ext
    match a with
    | ⟨0, _⟩ => show win4_1.index t (0 : Fin 2) * 256 + 1 * (y 0).val = (y 0).val; omega
    | ⟨1, _⟩ => show win4_1.index t (1 : Fin 2) * 128 + 1 * (y 1).val = (y 1).val; omega
  funext j
  obtain ⟨r, q, rfl⟩ : ∃ (r : Fin 5000) (q : Fin 128), j = ix2 r q := ⟨j 0, j 1, eq_ix2 j⟩
  have hemb : ((cfg4.win 2).blk t).view.emb (ix2 r q) = (ix2 (⟨t.val * 5000 + r.val, by have := r.isLt; omega⟩ : Fin 100000) q : S100000x128.Idx) := by
    funext a; apply Fin.ext
    match a with
    | ⟨0, _⟩ => show win4_2.index t (0 : Fin 2) * 5000 + 1 * r.val = t.val * 5000 + r.val; omega
    | ⟨1, _⟩ => show win4_2.index t (1 : Fin 2) * 128 + 1 * q.val = q.val; omega
  show k4_pay1 (iblk4 V c 0 t) (iblk4 V c 1 t) (ix2 r q) = G V c (((cfg4.win 2).blk t).view.emb (ix2 r q))
  rw [hemb, hB]
  unfold k4_pay1
  change matmul (DotDims.plain 5000 256 128) none _ _ _ _ = _
  refine RowLayers.product_rows (V c main_v79 : FVec Ideal S100000x256 .f32) (V c main_arg7 : FVec Ideal S256x128 .f32)
    (shapeCast S5000x256 (iblk4 V c 0 t : FVec Ideal S5000x256 .f32) shapeCasts_S5000x256_S5000x256) bitsLt_bf16_f32 r ⟨t.val * 5000 + r.val, by have := r.isLt; omega⟩ q fun k => ?_
  refine (congrFun (shapeCast_self (s := S5000x256) (iblk4 V c 0 t : FVec Ideal S5000x256 .f32) shapeCasts_S5000x256_S5000x256) (ix2 r k)).trans ?_
  show V c main_v79 (((cfg4.win 0).blk t).view.emb (ix2 r k)) = V c main_v79 _
  refine congrArg _ ?_
  funext a; apply Fin.ext
  match a with
  | ⟨0, _⟩ => show win4_0.index t (0 : Fin 2) * 5000 + 1 * r.val = t.val * 5000 + r.val; omega
  | ⟨1, _⟩ => show win4_0.index t (1 : Fin 2) * 256 + 1 * k.val = k.val; omega

/-- An index of the result is in point t's block iff each coordinate is in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v80).slice (win4_2.rect t)).set ↔ _
  rw [View.set_slice_whole, Rect.mem_set_unit]
  exact Iff.rfl

/-- The 20 blocks tile the result, so after the call it holds the whole product. -/
theorem arr (c : Dev nD) : (dat4 V c).arrAt 2 cfg4.N = G V c := by
  refine (dat4 V c).arrAt_eq_of_cover 2 (G V c) (fun t _ => flushed_eq V c t) fun i => ?_
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e0, e1, e2, e3, e4, e5⟩ := idx_facts t
  have e4' : win4_2.index t (0 : Fin 2) = (i 0).val / 5000 := e4
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

end Cert.KernelIdeal.Region4

end
-- ==== Proof.Region5.lean ====
/-
  A pipelined bias-and-rectifier pass: the third layer's aggregate plus its bias, rectified, 5000 rows at a time.

  The call has 20 grid points. Point t takes rows 5000 t … 5000 t + 4999 of the [100000, 128] aggregate and the whole bias
  vector, and writes rows 5000 t … 5000 t + 4999 of the [100000, 128] result: entry (r, q) of what it writes is
  max (aggregate (5000 t + r, q) + bias (q), 0), which is entry (5000 t + r, q) of the rectified sum of the whole
  aggregate and the bias spread over the rows. The 20 blocks tile the result, so it ends holding that whole array.
-/
import proofs.«111953_j85650237817597_1_alg».proof.Proof.Gen.KernelIdeal.Frame
import proofs.«111953_j85650237817597_1_alg».proof.Proof.LibReluLayers
import Idealize.ShloMosaic.Lib.Pipeline.Value
import Idealize.ShloMosaic.Lib.ValueIdx

set_option maxRecDepth 16384

noncomputable section

namespace Cert.KernelIdeal.Region5

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The index maps over the grid: the row block of the operand and of the result at point t is t, every other block
    index is 0. -/
theorem idx_facts : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

theorem hb1 : S128.BroadcastsInDim S1x128 (![1] : Fin S128.rank → Fin S1x128.rank) := by decide
theorem hb2 : S1x128.BroadcastsInDim S100000x128 (![0, 1] : Fin S1x128.rank → Fin S100000x128.rank) := by decide
theorem hb0 : S_.BroadcastsInDim S100000x128 (![] : Fin S_.rank → Fin S100000x128.rank) := by decide

/-- The whole layer output: the aggregate plus the bias spread over the rows, rectified. -/
abbrev G (c : Dev nD) : FVec Ideal S100000x128 .f32 :=
  maximumf (addf (V c main_v116 : FVec Ideal S100000x128 .f32)
      (broadcastInDim S100000x128 ![0, 1] hb2 (broadcastInDim S1x128 ![1] hb1 (V c main_arg8 : FVec Ideal S128 .f32))))
    (broadcastInDim S100000x128 ![] hb0 (constant (F := Ideal) S_ .f32 0x00000000#32))

/-- What point t writes back is block t of the whole layer output. -/
theorem flushed_eq (c : Dev nD) (t : Fin cfg5.N) :
    (dat5 V c).flushed 2 t = ((cfg5.win 2).blk t).view.read (Elt Ideal) (G V c) := by
  show (cfg5.win 2).cut (grid5.coords t) ((dat5 V c).after 2 t) = _
  rw [after5_2]
  unfold out5_2
  rw [View.canon_unit_zero hz]
  simp only [View.ld_unit_zero (S := S5000x128) hz, View.ld_unit_zero (S := S128) hz1]
  obtain ⟨e0, e1, e2, e3, e4⟩ := idx_facts t
  have ht : t.val < 20 := by have := t.isLt; have hN : cfg5.N = 20 := N_5; omega
  have hB : (iblk5 V c 1 t : FVec Ideal S128 .f32) = (V c main_arg8 : FVec Ideal S128 .f32) := by
    funext y
    show V c main_arg8 (((cfg5.win 1).blk t).view.emb y) = V c main_arg8 y
    refine congrArg _ ?_
    funext a; apply Fin.ext
    match a with
    | ⟨0, _⟩ => show win5_1.index t (0 : Fin 1) * 128 + 1 * (y 0).val = (y 0).val; omega
  funext j
  obtain ⟨r, q, rfl⟩ : ∃ (r : Fin 5000) (q : Fin 128), j = ix2 r q := ⟨j 0, j 1, eq_ix2 j⟩
  have hemb : ((cfg5.win 2).blk t).view.emb (ix2 r q) = (ix2 (⟨t.val * 5000 + r.val, by have := r.isLt; omega⟩ : Fin 100000) q : S100000x128.Idx) := by
    funext a; apply Fin.ext
    match a with
    | ⟨0, _⟩ => show win5_2.index t (0 : Fin 2) * 5000 + 1 * r.val = t.val * 5000 + r.val; omega
    | ⟨1, _⟩ => show win5_2.index t (1 : Fin 2) * 128 + 1 * q.val = q.val; omega
  show k5_pay1 (iblk5 V c 0 t) (iblk5 V c 1 t) (ix2 r q) = G V c (((cfg5.win 2).blk t).view.emb (ix2 r q))
  rw [hemb, hB]
  unfold k5_pay1
  refine ReluLayers.bias_relu_rows (V c main_v116 : FVec Ideal S100000x128 .f32) (V c main_arg8 : FVec Ideal S128 .f32)
    (iblk5 V c 0 t : FVec Ideal S5000x128 .f32) _ _ _ _ _ _ r ⟨t.val * 5000 + r.val, by have := r.isLt; omega⟩ q ?_
  show V c main_v116 (((cfg5.win 0).blk t).view.emb (ix2 r q)) = V c main_v116 _
  refine congrArg _ ?_
  funext a; apply Fin.ext
  match a with
  | ⟨0, _⟩ => show win5_0.index t (0 : Fin 2) * 5000 + 1 * r.val = t.val * 5000 + r.val; omega
  | ⟨1, _⟩ => show win5_0.index t (1 : Fin 2) * 128 + 1 * q.val = q.val; omega

/-- An index of the result is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v117).slice (win5_2.rect t)).set ↔ _
  rw [View.set_slice_whole, Rect.mem_set_unit]
  exact Iff.rfl

/-- The 20 blocks tile the result, so after the call it holds the whole layer output. -/
theorem arr (c : Dev nD) : (dat5 V c).arrAt 2 cfg5.N = G V c := by
  refine (dat5 V c).arrAt_eq_of_cover 2 (G V c) (fun t _ => flushed_eq V c t) fun i => ?_
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨e0, e1, e2, e3, e4⟩ := idx_facts t
  have e3' : win5_2.index t (0 : Fin 2) = (i 0).val / 5000 := e3
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The same, with the aggregate and the bias the call finds given by name. -/
theorem arr_of (c : Dev nD) (X : FVec Ideal S100000x128 .f32) (b : FVec Ideal S128 .f32)
    (hX : (V c main_v116 : FVec Ideal S100000x128 .f32) = X) (hb : (V c main_arg8 : FVec Ideal S128 .f32) = b) :
    (dat5 V c).arrAt 2 cfg5.N
      = maximumf (addf X (broadcastInDim S100000x128 ![0, 1] hb2 (broadcastInDim S1x128 ![1] hb1 b)))
          (broadcastInDim S100000x128 ![] hb0 (constant (F := Ideal) S_ .f32 0x00000000#32)) := by
  subst hX hb
  exact arr V c

end Cert.KernelIdeal.Region5

end
-- ==== Proof.Region6.lean ====
/-
  The last pipelined call: the two-layer perceptron head on the pooled graph features, in one grid point.

  The call's grid has one point, and every window's block is its whole array: the [2000, 128] pooled features, the
  [128, 64] and [64, 1] weight matrices and the two bias vectors go in, the [2000, 1] result comes out. What the point
  writes is, entry by entry, Σ_k max (Σ_j pooled (p, j) · U (j, k) + u (k), 0) · W (k, q) + w (q): the host's spelling of
  the same two dense layers with the rectifier between them. Its one block is the whole result.
-/
import proofs.«111953_j85650237817597_1_alg».proof.Proof.Gen.KernelIdeal.Frame
import proofs.«111953_j85650237817597_1_alg».proof.Proof.LibReluLayers
import Idealize.ShloMosaic.Lib.Pipeline.Value
import Idealize.ShloMosaic.Lib.ValueIdx

set_option maxRecDepth 16384

noncomputable section

namespace Cert.KernelIdeal.Region6

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- Every block index is 0 at the grid's one point. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = 0 ∧ win6_3.index t (1 : Fin 2) = 0
    ∧ win6_4.index t (0 : Fin 1) = 0
    ∧ win6_5.index t (0 : Fin 2) = 0 ∧ win6_5.index t (1 : Fin 2) = 0 :=
  (by decide +kernel : ∀ t : Fin grid6.N, _)

theorem hu1 : S64.BroadcastsInDim S1x64 (![1] : Fin S64.rank → Fin S1x64.rank) := by decide
theorem hu2 : S1x64.BroadcastsInDim S2000x64 (![0, 1] : Fin S1x64.rank → Fin S2000x64.rank) := by decide
theorem hu0 : S_.BroadcastsInDim S2000x64 (![] : Fin S_.rank → Fin S2000x64.rank) := by decide
theorem hw1 : S1.BroadcastsInDim S1x1 (![1] : Fin S1.rank → Fin S1x1.rank) := by decide
theorem hw2 : S1x1.BroadcastsInDim S2000x1 (![0, 1] : Fin S1x1.rank → Fin S2000x1.rank) := by decide

/-- The head on whole arrays, in the host's spelling. -/
abbrev G (c : Dev nD) : FVec Ideal S2000x1 .f32 :=
  addf (Host.dotGeneral (F := Ideal) (φ₁ := .f32) (φ₂ := .f32) (DotDims.plain 2000 64 1) none
      (maximumf (addf (Host.dotGeneral (F := Ideal) (φ₁ := .f32) (φ₂ := .f32) (DotDims.plain 2000 128 64) none
            (V c main_v129 : FVec Ideal S2000x128 .f32) (V c main_arg9 : FVec Ideal S128x64 .f32))
          (broadcastInDim S2000x64 ![0, 1] hu2 (broadcastInDim S1x64 ![1] hu1 (V c main_arg10 : FVec Ideal S64 .f32))))
        (broadcastInDim S2000x64 ![] hu0 (constant (F := Ideal) S_ .f32 0x00000000#32)))
      (V c main_arg11 : FVec Ideal S64x1 .f32))
    (broadcastInDim S2000x1 ![0, 1] hw2 (broadcastInDim S1x1 ![1] hw1 (V c main_arg12 : FVec Ideal S1 .f32)))

/-- What the one point writes back is the head of the whole arrays, read through the result's one block. -/
theorem flushed_eq (c : Dev nD) (t : Fin cfg6.N) :
    (dat6 V c).flushed 5 t = ((cfg6.win 5).blk t).view.read (Elt Ideal) (G V c) := by
  show (cfg6.win 5).cut (grid6.coords t) ((dat6 V c).after 5 t) = _
  rw [after6_5]
  unfold out6_5
  rw [View.canon_unit_zero hz]
  simp only [View.ld_unit_zero (S := S2000x128) hz, View.ld_unit_zero (S := S128x64) hz, View.ld_unit_zero (S := S64) hz1,
    View.ld_unit_zero (S := S64x1) hz, View.ld_unit_zero (S := S1) hz1]
  obtain ⟨e0, e1, e2, e3, e4, e5, e6, e7, e8, e9⟩ := idx_facts t
  have h0 : (iblk6 V c 0 t : FVec Ideal S2000x128 .f32) = (V c main_v129 : FVec Ideal S2000x128 .f32) := by
    funext y
    show V c main_v129 (((cfg6.win 0).blk t).view.emb y) = V c main_v129 y
    refine congrArg _ ?_
    funext a; apply Fin.ext
    match a with
    | ⟨0, _⟩ => show win6_0.index t (0 : Fin 2) * 2000 + 1 * (y 0).val = (y 0).val; omega
    | ⟨1, _⟩ => show win6_0.index t (1 : Fin 2) * 128 + 1 * (y 1).val = (y 1).val; omega
  have h1 : (iblk6 V c 1 t : FVec Ideal S128x64 .f32) = (V c main_arg9 : FVec Ideal S128x64 .f32) := by
    funext y
    show V c main_arg9 (((cfg6.win 1).blk t).view.emb y) = V c main_arg9 y
    refine congrArg _ ?_
    funext a; apply Fin.ext
    match a with
    | ⟨0, _⟩ => show win6_1.index t (0 : Fin 2) * 128 + 1 * (y 0).val = (y 0).val; omega
    | ⟨1, _⟩ => show win6_1.index t (1 : Fin 2) * 64 + 1 * (y 1).val = (y 1).val; omega
  have h2 : (iblk6 V c 2 t : FVec Ideal S64 .f32) = (V c main_arg10 : FVec Ideal S64 .f32) := by
    funext y
    show V c main_arg10 (((cfg6.win 2).blk t).view.emb y) = V c main_arg10 y
    refine congrArg _ ?_
    funext a; apply Fin.ext
    match a with
    | ⟨0, _⟩ => show win6_2.index t (0 : Fin 1) * 64 + 1 * (y 0).val = (y 0).val; omega
  have h3 : (iblk6 V c 3 t : FVec Ideal S64x1 .f32) = (V c main_arg11 : FVec Ideal S64x1 .f32) := by
    funext y
    show V c main_arg11 (((cfg6.win 3).blk t).view.emb y) = V c main_arg11 y
    refine congrArg _ ?_
    funext a; apply Fin.ext
    match a with
    | ⟨0, _⟩ => show win6_3.index t (0 : Fin 2) * 64 + 1 * (y 0).val = (y 0).val; omega
    | ⟨1, _⟩ => show win6_3.index t (1 : Fin 2) * 1 + 1 * (y 1).val = (y 1).val; omega
  have h4 : (iblk6 V c 4 t : FVec Ideal S1 .f32) = (V c main_arg12 : FVec Ideal S1 .f32) := by
    funext y
    show V c main_arg12 (((cfg6.win 4).blk t).view.emb y) = V c main_arg12 y
    refine congrArg _ ?_
    funext a; apply Fin.ext
    match a with
    | ⟨0, _⟩ => show win6_4.index t (0 : Fin 1) * 1 + 1 * (y 0).val = (y 0).val; omega
  rw [h0, h1, h2, h3, h4]
  funext j
  have hemb : ((cfg6.win 5).blk t).view.emb j = j := by
    funext a; apply Fin.ext
    match a with
    | ⟨0, _⟩ => show win6_5.index t (0 : Fin 2) * 2000 + 1 * (j 0).val = (j 0).val; omega
    | ⟨1, _⟩ => show win6_5.index t (1 : Fin 2) * 1 + 1 * (j 1).val = (j 1).val; omega
  show k6_pay1 (V c main_v129) (V c main_arg9) (V c main_arg10) (V c main_arg11) (V c main_arg12) j = G V c (((cfg6.win 5).blk t).view.emb j)
  rw [hemb]
  unfold k6_pay1
  rw [show dot_S2000x128_S128x64_S2000x64_1_0_0_1_n_n = DotDims.plain 2000 128 64 from rfl,
    show dot_S2000x64_S64x1_S2000x1_1_0_0_1_n_n = DotDims.plain 2000 64 1 from rfl]
  exact congrFun (ReluLayers.head_eq (V c main_v129 : FVec Ideal S2000x128 .f32) (V c main_arg9 : FVec Ideal S128x64 .f32)
    (V c main_arg10 : FVec Ideal S64 .f32) (V c main_arg11 : FVec Ideal S64x1 .f32) (V c main_arg12 : FVec Ideal S1 .f32)
    bitsLt_bf16_f32 shapeCasts_S2000x128_S2000x128 shapeCasts_S64_S1x64 broadcasts_S1x64_S2000x64 hu1 hu2 hu0
    shapeCasts_S1_S1x1 broadcasts_S1x1_S2000x1 hw1 hw2) j

/-- The one block is the whole result. -/
theorem arr (c : Dev nD) : (dat6 V c).arrAt 5 cfg6.N = G V c := by
  refine (dat6 V c).arrAt_eq_of_cover 5 (G V c) (fun t _ => flushed_eq V c t) fun i => ?_
  have hi0 : (i 0).val < 2000 := (i 0).isLt
  have hi1 : (i 1).val < 1 := (i 1).isLt
  obtain ⟨e0, e1, e2, e3, e4, e5, e6, e7, e8, e9⟩ := idx_facts t6_0
  refine ⟨t6_0, (by decide +kernel : ∀ t : Fin grid6.N, win6_5.flush t = true) t6_0, ?_⟩
  show i ∈ ((View.whole main_v130).slice (win6_5.rect t6_0)).set
  rw [View.set_slice_whole, Rect.mem_set_unit]
  intro a
  match a with
  | ⟨0, _⟩ => show win6_5.index t6_0 (0 : Fin 2) * 2000 ≤ (i 0).val ∧ (i 0).val < win6_5.index t6_0 (0 : Fin 2) * 2000 + 2000; omega
  | ⟨1, _⟩ => show win6_5.index t6_0 (1 : Fin 2) * 1 ≤ (i 1).val ∧ (i 1).val < win6_5.index t6_0 (1 : Fin 2) * 1 + 1; omega

end Cert.KernelIdeal.Region6

end
-- ==== Proof.Stretch0.lean ====
/-
  The first stretch of host operations in the idealized kernel program: the source and destination index vectors.

  The program cuts row 0 and row 1 out of the [2, 400000] edge list and flattens each to a vector of 400000 entries:
  the edges' sources and destinations. The reference does the same with the same operations.
-/
import proofs.«111953_j85650237817597_1_alg».proof.Proof.Gen.KernelIdeal.Frame
import proofs.«111953_j85650237817597_1_alg».proof.Proof.Gen.ReferenceIdeal.Read

set_option maxRecDepth 16384

noncomputable section

namespace Cert.KernelIdeal.Stretch0

open Idealize.ShloMosaic Idealize.ShloMosaic.TcCoe Idealize.SL.Sem
open Cert.KernelIdeal Cert.KernelIdeal.Gen
open Cert.ReferenceIdeal.Read (val_main_v1 val_main_v3 val_main_v4 val_main_v40 val_main_v45 val_main_v81 val_main_v86 val_main_v122 val_main_v126 val_main_v138)

variable (m : (ℓ : Loc nD τ sig) → Buf (Elt Ideal) ℓ) (ρ : Dev nD → PrngReg)

/-- The source vector is the reference's. -/
theorem v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results
  rfl

/-- The destination vector is the reference's. -/
theorem v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results
  rfl

end Cert.KernelIdeal.Stretch0

end
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.Stretch1.lean ====
/-
  The first aggregation stretch of host operations in the idealized kernel program, read as a whole.

  Between two pipelined calls the program normalizes and aggregates on the host: it appends a self-loop to every node's
  edges, counts each node's incoming edges, takes the inverse square root of the counts, gathers the source rows of the
  first product, scales each by the two endpoints' factors and adds the scaled rows into their destination rows. These
  are, line for line, the host operations the reference applies at the same place. So when the stretch finds the source
  and destination index vectors and the first product at the reference's values, it leaves the aggregate at the reference's value.
-/
import proofs.«111953_j85650237817597_1_alg».proof.Proof.Gen.KernelIdeal.Frame
import proofs.«111953_j85650237817597_1_alg».proof.Proof.Gen.ReferenceIdeal.Read
import proofs.«111953_j85650237817597_1_alg».proof.Proof.LibResultsRest

set_option maxRecDepth 16384

noncomputable section

namespace Cert.KernelIdeal.Stretch1

open Idealize.ShloMosaic Idealize.ShloMosaic.TcCoe Idealize.SL.Sem
open Cert.KernelIdeal Cert.KernelIdeal.Gen
open Cert.ReferenceIdeal.Read (val_main_v1 val_main_v3 val_main_v4 val_main_v40 val_main_v45 val_main_v81 val_main_v86 val_main_v122 val_main_v126 val_main_v138)

variable (m : (ℓ : Loc nD τ sig) → Buf (Elt Ideal) ℓ) (ρ : Dev nD → PrngReg)

/-- The first aggregate is the reference's, given the reference's inputs. -/
theorem v40 (c : Dev nD) (x0 : (⟨Cert.ReferenceIdeal.S100000x78, .f32⟩ : BufTy).Contents (Elt Ideal)) (x1 : (⟨Cert.ReferenceIdeal.S2x400000, .i32⟩ : BufTy).Contents (Elt Ideal)) (x3 : (⟨Cert.ReferenceIdeal.S78x128, .f32⟩ : BufTy).Contents (Elt Ideal))
    (h1 : W2 m ρ c (Proc.devRef .tc main_v1) = val_main_v1 (F := Ideal) x1)
    (h3 : W2 m ρ c (Proc.devRef .tc main_v3) = val_main_v3 (F := Ideal) x1)
    (h4 : W2 m ρ c (Proc.devRef .tc main_v4) = val_main_v4 (F := Ideal) x0 x3) :
    W3 m ρ c (Proc.devRef .tc main_v40) = val_main_v40 (F := Ideal) x0 x1 x3 := by
  show StableHlo.after hostOps1 (W2 m ρ c) (Proc.devRef .tc main_v40) = _
  after_results_simp
  after_results_rest
  rw [h1, h3, h4]
  rfl

end Cert.KernelIdeal.Stretch1

end
-- ==== Proof.Stretch3.lean ====
/-
  The second aggregation stretch of host operations in the idealized kernel program, read as a whole.

  Between two pipelined calls the program normalizes and aggregates on the host: it appends a self-loop to every node's
  edges, counts each node's incoming edges, takes the inverse square root of the counts, gathers the source rows of the
  second product, scales each by the two endpoints' factors and adds the scaled rows into their destination rows. These
  are, line for line, the host operations the reference applies at the same place. So when the stretch finds the source
  and destination index vectors and the second product at the reference's values, it leaves the aggregate at the reference's value.
-/
import proofs.«111953_j85650237817597_1_alg».proof.Proof.Gen.KernelIdeal.Frame
import proofs.«111953_j85650237817597_1_alg».proof.Proof.Gen.ReferenceIdeal.Read
import proofs.«111953_j85650237817597_1_alg».proof.Proof.LibResultsRest

set_option maxRecDepth 16384

noncomputable section

namespace Cert.KernelIdeal.Stretch3

open Idealize.ShloMosaic Idealize.ShloMosaic.TcCoe Idealize.SL.Sem
open Cert.KernelIdeal Cert.KernelIdeal.Gen
open Cert.ReferenceIdeal.Read (val_main_v1 val_main_v3 val_main_v4 val_main_v40 val_main_v45 val_main_v81 val_main_v86 val_main_v122 val_main_v126 val_main_v138)

variable (m : (ℓ : Loc nD τ sig) → Buf (Elt Ideal) ℓ) (ρ : Dev nD → PrngReg)

/-- The second aggregate is the reference's, given the reference's inputs. -/
theorem v78 (c : Dev nD) (x0 : (⟨Cert.ReferenceIdeal.S100000x78, .f32⟩ : BufTy).Contents (Elt Ideal)) (x1 : (⟨Cert.ReferenceIdeal.S2x400000, .i32⟩ : BufTy).Contents (Elt Ideal)) (x3 : (⟨Cert.ReferenceIdeal.S78x128, .f32⟩ : BufTy).Contents (Elt Ideal)) (x4 : (⟨Cert.ReferenceIdeal.S128, .f32⟩ : BufTy).Contents (Elt Ideal)) (x5 : (⟨Cert.ReferenceIdeal.S128x256, .f32⟩ : BufTy).Contents (Elt Ideal))
    (h1 : W5 m ρ c (Proc.devRef .tc main_v1) = val_main_v1 (F := Ideal) x1)
    (h3 : W5 m ρ c (Proc.devRef .tc main_v3) = val_main_v3 (F := Ideal) x1)
    (h4 : W5 m ρ c (Proc.devRef .tc main_v42) = val_main_v45 (F := Ideal) x0 x1 x3 x4 x5) :
    W6 m ρ c (Proc.devRef .tc main_v78) = val_main_v81 (F := Ideal) x0 x1 x3 x4 x5 := by
  show StableHlo.after hostOps3 (W5 m ρ c) (Proc.devRef .tc main_v78) = _
  after_results_simp
  after_results_rest
  rw [h1, h3, h4]
  rfl

end Cert.KernelIdeal.Stretch3

end
-- ==== Proof.Stretch5.lean ====
/-
  The third aggregation stretch of host operations in the idealized kernel program, read as a whole.

  Between two pipelined calls the program normalizes and aggregates on the host: it appends a self-loop to every node's
  edges, counts each node's incoming edges, takes the inverse square root of the counts, gathers the source rows of the
  third product, scales each by the two endpoints' factors and adds the scaled rows into their destination rows. These
  are, line for line, the host operations the reference applies at the same place. So when the stretch finds the source
  and destination index vectors and the third product at the reference's values, it leaves the aggregate at the reference's value.
-/
import proofs.«111953_j85650237817597_1_alg».proof.Proof.Gen.KernelIdeal.Frame
import proofs.«111953_j85650237817597_1_alg».proof.Proof.Gen.ReferenceIdeal.Read
import proofs.«111953_j85650237817597_1_alg».proof.Proof.LibResultsRest

set_option maxRecDepth 16384

noncomputable section

namespace Cert.KernelIdeal.Stretch5

open Idealize.ShloMosaic Idealize.ShloMosaic.TcCoe Idealize.SL.Sem
open Cert.KernelIdeal Cert.KernelIdeal.Gen
open Cert.ReferenceIdeal.Read (val_main_v1 val_main_v3 val_main_v4 val_main_v40 val_main_v45 val_main_v81 val_main_v86 val_main_v122 val_main_v126 val_main_v138)

variable (m : (ℓ : Loc nD τ sig) → Buf (Elt Ideal) ℓ) (ρ : Dev nD → PrngReg)

/-- The third aggregate is the reference's, given the reference's inputs. -/
theorem v116 (c : Dev nD) (x0 : (⟨Cert.ReferenceIdeal.S100000x78, .f32⟩ : BufTy).Contents (Elt Ideal)) (x1 : (⟨Cert.ReferenceIdeal.S2x400000, .i32⟩ : BufTy).Contents (Elt Ideal)) (x3 : (⟨Cert.ReferenceIdeal.S78x128, .f32⟩ : BufTy).Contents (Elt Ideal)) (x4 : (⟨Cert.ReferenceIdeal.S128, .f32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x128, .f32⟩ : BufTy).Contents (Elt Ideal))
    (h1 : W8 m ρ c (Proc.devRef .tc main_v1) = val_main_v1 (F := Ideal) x1)
    (h3 : W8 m ρ c (Proc.devRef .tc main_v3) = val_main_v3 (F := Ideal) x1)
    (h4 : W8 m ρ c (Proc.devRef .tc main_v80) = val_main_v86 (F := Ideal) x0 x1 x3 x4 x5 x6 x7) :
    W9 m ρ c (Proc.devRef .tc main_v116) = val_main_v122 (F := Ideal) x0 x1 x3 x4 x5 x6 x7 := by
  show StableHlo.after hostOps5 (W8 m ρ c) (Proc.devRef .tc main_v116) = _
  after_results_simp
  after_results_rest
  rw [h1, h3, h4]
  rfl

end Cert.KernelIdeal.Stretch5

end
-- ==== Proof.Stretch6.lean ====
/-
  The pooling stretch of host operations in the idealized kernel program, read as a whole.

  After the third layer the program averages the node features of each graph on the host: it adds each node's row
  into its graph's row, counts each graph's nodes, and divides each graph's row by the larger of its count and one.
  These are, line for line, the host operations the reference applies at the same place. So when the stretch finds the
  third layer's output at the reference's value and the graph-id vector at the argument, it leaves the pooled features
  at the reference's value.
-/
import proofs.«111953_j85650237817597_1_alg».proof.Proof.Gen.KernelIdeal.Frame
import proofs.«111953_j85650237817597_1_alg».proof.Proof.Gen.ReferenceIdeal.Read

set_option maxRecDepth 16384

noncomputable section

namespace Cert.KernelIdeal.Stretch6

open Idealize.ShloMosaic Idealize.ShloMosaic.TcCoe Idealize.SL.Sem
open Cert.KernelIdeal Cert.KernelIdeal.Gen
open Cert.ReferenceIdeal.Read (val_main_v1 val_main_v3 val_main_v4 val_main_v40 val_main_v45 val_main_v81 val_main_v86 val_main_v122 val_main_v126 val_main_v138)

variable (m : (ℓ : Loc nD τ sig) → Buf (Elt Ideal) ℓ) (ρ : Dev nD → PrngReg)

/-- The pooled features are the reference's, given the reference's inputs. -/
theorem v129 (c : Dev nD) (x0 : (⟨Cert.ReferenceIdeal.S100000x78, .f32⟩ : BufTy).Contents (Elt Ideal)) (x1 : (⟨Cert.ReferenceIdeal.S2x400000, .i32⟩ : BufTy).Contents (Elt Ideal)) (x2 : (⟨Cert.ReferenceIdeal.S100000, .i32⟩ : BufTy).Contents (Elt Ideal)) (x3 : (⟨Cert.ReferenceIdeal.S78x128, .f32⟩ : BufTy).Contents (Elt Ideal)) (x4 : (⟨Cert.ReferenceIdeal.S128, .f32⟩ : BufTy).Contents (Elt Ideal)) (x5 : (⟨Cert.ReferenceIdeal.S128x256, .f32⟩ : BufTy).Contents (Elt Ideal)) (x6 : (⟨Cert.ReferenceIdeal.S256, .f32⟩ : BufTy).Contents (Elt Ideal)) (x7 : (⟨Cert.ReferenceIdeal.S256x128, .f32⟩ : BufTy).Contents (Elt Ideal)) (x8 : (⟨Cert.ReferenceIdeal.S128, .f32⟩ : BufTy).Contents (Elt Ideal))
    (h2 : W10 m ρ c (Proc.devRef .tc main_arg2) = x2)
    (h4 : W10 m ρ c (Proc.devRef .tc main_v117) = val_main_v126 (F := Ideal) x0 x1 x3 x4 x5 x6 x7 x8) :
    W11 m ρ c (Proc.devRef .tc main_v129) = val_main_v138 (F := Ideal) x0 x1 x2 x3 x4 x5 x6 x7 x8 := by
  show StableHlo.after hostOps6 (W10 m ρ c) (Proc.devRef .tc main_v129) = _
  after_results_simp
  rw [h2, h4]
  rfl

end Cert.KernelIdeal.Stretch6

end
-- ==== Proof.KValue.lean ====
/-
  The idealized kernel program's result, as the reference's function of the argument arrays.

  The program alternates stretches of host operations with pipelined calls. Walking its boundaries in order, each
  buffer a later step reads holds what the reference's corresponding value is:

    the source and destination index vectors (first stretch);
    the first product x · W1 (call 0), its normalized aggregate over the edges and self-loops (second stretch),
    that aggregate plus the bias, rectified (call 1): the first layer's output;
    the second layer likewise (calls 2 and 3 around the third stretch), and the third (calls 4 and 5 around the fourth);
    the mean of the node features over each graph (last stretch);
    the two-layer perceptron head of the pooled features (call 6).

  A matrix product by blocks of rows is the whole product, a bias-and-rectifier pass by blocks of rows is the pass on the
  whole array, and the stretches of host operations are the reference's own lines: at each step both programs apply the
  same function to equal values.
-/
import proofs.«111953_j85650237817597_1_alg».proof.Proof.Keep
import proofs.«111953_j85650237817597_1_alg».proof.Proof.Region0
import proofs.«111953_j85650237817597_1_alg».proof.Proof.Region1
import proofs.«111953_j85650237817597_1_alg».proof.Proof.Region2
import proofs.«111953_j85650237817597_1_alg».proof.Proof.Region3
import proofs.«111953_j85650237817597_1_alg».proof.Proof.Region4
import proofs.«111953_j85650237817597_1_alg».proof.Proof.Region5
import proofs.«111953_j85650237817597_1_alg».proof.Proof.Region6
import proofs.«111953_j85650237817597_1_alg».proof.Proof.Stretch0
import proofs.«111953_j85650237817597_1_alg».proof.Proof.Stretch1
import proofs.«111953_j85650237817597_1_alg».proof.Proof.Stretch3
import proofs.«111953_j85650237817597_1_alg».proof.Proof.Stretch5
import proofs.«111953_j85650237817597_1_alg».proof.Proof.Stretch6

set_option maxRecDepth 16384

noncomputable section

namespace Cert.KernelIdeal.KValue

open Idealize.ShloMosaic Idealize.ShloMosaic.TcCoe Idealize.SL.Sem
open Cert.KernelIdeal Cert.KernelIdeal.Gen
open Cert.ReferenceIdeal.Read (val_main_v1 val_main_v3 val_main_v4 val_main_v40 val_main_v44 val_main_v45 val_main_v81 val_main_v85 val_main_v86 val_main_v122 val_main_v126 val_main_v138 val_main_v147)

variable (m : (ℓ : Loc nD τ sig) → Buf (Elt Ideal) ℓ) (ρ : Dev nD → PrngReg)

/-- The first product. -/
theorem v4 (c : Dev nD) : W2 m ρ c (Proc.devRef .tc main_v4) = val_main_v4 (F := Ideal) (m ((c : Thread nD τ).loc main_arg0)) (m ((c : Thread nD τ).loc main_arg3)) := by
  refine (W2_arr m ρ c 2).trans ((Region0.arr (V1 m ρ) c).trans ?_)
  show Host.dotGeneral (F := Ideal) _ none (W1 m ρ c (Proc.devRef .tc main_arg0)) (W1 m ρ c (Proc.devRef .tc main_arg3)) = _
  rw [Keep.W1_arg0 m ρ c, Keep.W1_arg3 m ρ c]
  rfl

/-- The first aggregate. -/
theorem v40 (c : Dev nD) : W3 m ρ c (Proc.devRef .tc main_v40) = val_main_v40 (F := Ideal) (m ((c : Thread nD τ).loc main_arg0)) (m ((c : Thread nD τ).loc main_arg1)) (m ((c : Thread nD τ).loc main_arg3)) :=
  Stretch1.v40 m ρ c _ _ _ ((Keep.W2_v1 m ρ c).trans (Stretch0.v1 m ρ c)) ((Keep.W2_v3 m ρ c).trans (Stretch0.v3 m ρ c)) (v4 m ρ c)

/-- The first layer's output. -/
theorem v41 (c : Dev nD) : W4 m ρ c (Proc.devRef .tc main_v41) = val_main_v44 (F := Ideal) (m ((c : Thread nD τ).loc main_arg0)) (m ((c : Thread nD τ).loc main_arg1)) (m ((c : Thread nD τ).loc main_arg3)) (m ((c : Thread nD τ).loc main_arg4)) := by
  refine (W4_arr m ρ c 2).trans ((Region1.arr_of (V3 m ρ) c _ _ (v40 m ρ c) (Keep.W3_arg4 m ρ c)).trans ?_)
  rfl

/-- The second product. -/
theorem v42 (c : Dev nD) : W5 m ρ c (Proc.devRef .tc main_v42) = val_main_v45 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((Region2.arr (V4 m ρ) c).trans ?_)
  show Host.dotGeneral (F := Ideal) _ none (W4 m ρ c (Proc.devRef .tc main_v41)) (W4 m ρ c (Proc.devRef .tc main_arg5)) = _
  rw [v41 m ρ c, Keep.W4_arg5 m ρ c]
  rfl

/-- The second aggregate. -/
theorem v78 (c : Dev nD) : W6 m ρ c (Proc.devRef .tc main_v78) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Stretch3.v78 m ρ c _ _ _ _ _ ((Keep.W5_v1 m ρ c).trans (Stretch0.v1 m ρ c)) ((Keep.W5_v3 m ρ c).trans (Stretch0.v3 m ρ c)) (v42 m ρ c)

/-- The second layer's output. -/
theorem v79 (c : Dev nD) : W7 m ρ c (Proc.devRef .tc main_v79) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W7_arr m ρ c 2).trans ((Region3.arr_of (V6 m ρ) c _ _ (v78 m ρ c) (Keep.W6_arg6 m ρ c)).trans ?_)
  rfl

/-- The third product. -/
theorem v80 (c : Dev nD) : W8 m ρ c (Proc.devRef .tc main_v80) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 2).trans ((Region4.arr (V7 m ρ) c).trans ?_)
  show Host.dotGeneral (F := Ideal) _ none (W7 m ρ c (Proc.devRef .tc main_v79)) (W7 m ρ c (Proc.devRef .tc main_arg7)) = _
  rw [v79 m ρ c, Keep.W7_arg7 m ρ c]
  rfl

/-- The third aggregate. -/
theorem v116 (c : Dev nD) : W9 m ρ c (Proc.devRef .tc main_v116) = val_main_v122 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  Stretch5.v116 m ρ c _ _ _ _ _ _ _ ((Keep.W8_v1 m ρ c).trans (Stretch0.v1 m ρ c)) ((Keep.W8_v3 m ρ c).trans (Stretch0.v3 m ρ c)) (v80 m ρ c)

/-- The third layer's output. -/
theorem v117 (c : Dev nD) : W10 m ρ c (Proc.devRef .tc main_v117) = val_main_v126 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 2).trans ((Region5.arr_of (V9 m ρ) c _ _ (v116 m ρ c) (Keep.W9_arg8 m ρ c)).trans ?_)
  rfl

/-- The pooled graph features. -/
theorem v129 (c : Dev nD) : W11 m ρ c (Proc.devRef .tc main_v129) = val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  Stretch6.v129 m ρ c _ _ _ _ _ _ _ _ _ (Keep.W10_arg2 m ρ c) (v117 m ρ c)

/-- The program's result is the reference's function of the argument arrays. -/
theorem result (c : Dev nD) : W12 m ρ c (Proc.devRef .tc main_v130) = val_main_v147 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W12_arr m ρ c 5).trans ((Region6.arr (V11 m ρ) c).trans ?_)
  show addf (Host.dotGeneral (F := Ideal) _ none (maximumf (addf (Host.dotGeneral (F := Ideal) _ none
        (W11 m ρ c (Proc.devRef .tc main_v129)) (W11 m ρ c (Proc.devRef .tc main_arg9)))
        (broadcastInDim _ _ _ (broadcastInDim _ _ _ (W11 m ρ c (Proc.devRef .tc main_arg10))))) _)
      (W11 m ρ c (Proc.devRef .tc main_arg11))) (broadcastInDim _ _ _ (broadcastInDim _ _ _ (W11 m ρ c (Proc.devRef .tc main_arg12)))) = _
  rw [v129 m ρ c, Keep.W11_arg9 m ρ c, Keep.W11_arg10 m ρ c, Keep.W11_arg11 m ρ c, Keep.W11_arg12 m ρ c]
  rfl

end Cert.KernelIdeal.KValue

end
-- ==== Proof.lean ====
/-
  The certificate of a three-layer graph convolution network with mean pooling and a perceptron head.

  The kernel program computes each layer's dense product and its bias-and-rectifier pass in pipelined calls over blocks
  of 5000 node rows, and the perceptron head in one call; the normalization, the gather of source rows, the aggregation
  over edges and the pooling over graphs are host operations. The reference computes everything with host operations, the
  same ones in the same order around whole-array products. Over the extended reals a product by blocks of rows is the whole
  product and a row-wise pass by blocks of rows is the pass on the whole array, so the two programs end with the same
  function of the argument arrays (no finiteness of the inputs is used).

  The three frames are the generated ones (the reference's is its run with the result dropped); the idealization rewrote
  nothing, so it is preserved trivially; the equivalence joins the kernel program's run, with its result read as the
  reference's function of the arguments, to the reference's run.
-/
import proofs.«111953_j85650237817597_1_alg».proof.Defs
import proofs.«111953_j85650237817597_1_alg».proof.Proof.Gen.Kernel
import proofs.«111953_j85650237817597_1_alg».proof.Proof.Gen.Kernel.Frame
import proofs.«111953_j85650237817597_1_alg».proof.Proof.Gen.KernelIdeal
import proofs.«111953_j85650237817597_1_alg».proof.Proof.Gen.KernelIdeal.Frame
import proofs.«111953_j85650237817597_1_alg».proof.Proof.Gen.ReferenceIdeal
import proofs.«111953_j85650237817597_1_alg».proof.Proof.Gen.ReferenceIdeal.Run
import proofs.«111953_j85650237817597_1_alg».proof.Proof.Gen.ReferenceIdeal.Read
import proofs.«111953_j85650237817597_1_alg».proof.Proof.Gen.Pre_finite_inputs
import proofs.«111953_j85650237817597_1_alg».proof.Proof.KRun
import proofs.«111953_j85650237817597_1_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

section KernelRun
open Cert.KernelIdeal Cert.KernelIdeal.Gen

/-- The idealized kernel program runs, its result ends at the reference's function of its argument arrays, and its
    argument arrays end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v130) = Cert.ReferenceIdeal.Read.val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v130 (by decide))).trans (Cert.KernelIdeal.KValue.result m ρ c),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c)⟩)
    (Cert.KernelIdeal.KRun.run_all m ρ)

end KernelRun

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs run and end with the same result: the reference's
    function of the argument arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9, g10, g11, g12⟩ := hagree c
  rw [Cert.ReferenceIdeal.Read.val_main_v147_eq, g0, g1, g2, g3, g4, g5, g6, g7, g8, g9, g10, g11, g12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
